-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel

variable [Facts]

def fn {F : FTy → Type} [FloatOps F] (main_arg0 : FVec F S8000000x3 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  main_v3
-- ==== Kernel.lean ====
abbrev S8000000x3 : Shape := ⟨2, ![8000000, 3]⟩
abbrev S3x8000000 : Shape := ⟨2, ![3, 8000000]⟩
abbrev S_ : Shape := ⟨0, ![]⟩
abbrev S3x8388608 : Shape := ⟨2, ![3, 8388608]⟩
abbrev S3x65536x128 : Shape := ⟨3, ![3, 65536, 128]⟩
abbrev S65536x128 : Shape := ⟨2, ![65536, 128]⟩
abbrev S3x4096x128 : Shape := ⟨3, ![3, 4096, 128]⟩
abbrev S4096x128 : Shape := ⟨2, ![4096, 128]⟩
abbrev S1x4096x128 : Shape := ⟨3, ![1, 4096, 128]⟩
abbrev S8388608 : Shape := ⟨1, ![8388608]⟩
abbrev S160001 : Shape := ⟨1, ![160001]⟩
abbrev S8388608x1 : Shape := ⟨2, ![8388608, 1]⟩
abbrev S160000 : Shape := ⟨1, ![160000]⟩
abbrev S400x400 : Shape := ⟨2, ![400, 400]⟩

abbrev nBuf : Space → Nat
  | .hbm => 23
  | .vmem => 4
  | .smem => 0
  | _ => 0

abbrev bufTy : (tb : Table) → Fin (tcTables nBuf tb) → BufTy
  | .hbm, ⟨0, _⟩ => ⟨S8000000x3, .f32⟩
  | .hbm, ⟨1, _⟩ => ⟨S3x8000000, .f32⟩
  | .hbm, ⟨2, _⟩ => ⟨S_, .i32⟩
  | .hbm, ⟨3, _⟩ => ⟨S_, .f32⟩
  | .hbm, ⟨4, _⟩ => ⟨S3x8388608, .f32⟩
  | .hbm, ⟨5, _⟩ => ⟨S3x65536x128, .f32⟩
  | .hbm, ⟨6, _⟩ => ⟨S65536x128, .i32⟩
  | .hbm, ⟨7, _⟩ => ⟨S8388608, .i32⟩
  | .hbm, ⟨8, _⟩ => ⟨S_, .f32⟩
  | .hbm, ⟨9, _⟩ => ⟨S160001, .f32⟩
  | .hbm, ⟨10, _⟩ => ⟨S_, .i32⟩
  | .hbm, ⟨11, _⟩ => ⟨S8388608, .i32⟩
  | .hbm, ⟨12, _⟩ => ⟨S8388608, .i1⟩
  | .hbm, ⟨13, _⟩ => ⟨S_, .i32⟩
  | .hbm, ⟨14, _⟩ => ⟨S8388608, .i32⟩
  | .hbm, ⟨15, _⟩ => ⟨S8388608, .i32⟩
  | .hbm, ⟨16, _⟩ => ⟨S8388608, .i32⟩
  | .hbm, ⟨17, _⟩ => ⟨S8388608x1, .i32⟩
  | .hbm, ⟨18, _⟩ => ⟨S_, .f32⟩
  | .hbm, ⟨19, _⟩ => ⟨S8388608, .f32⟩
  | .hbm, ⟨20, _⟩ => ⟨S160001, .f32⟩
  | .hbm, ⟨21, _⟩ => ⟨S160000, .f32⟩
  | .hbm, ⟨22, _⟩ => ⟨S400x400, .f32⟩
  | .local _ .vmem, ⟨0, _⟩ => ⟨S3x4096x128, .f32⟩
  | .local _ .vmem, ⟨1, _⟩ => ⟨S3x4096x128, .f32⟩
  | .local _ .vmem, ⟨2, _⟩ => ⟨S4096x128, .i32⟩
  | .local _ .vmem, ⟨3, _⟩ => ⟨S4096x128, .i32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S8000000x3_S3x8000000_1_0 : S8000000x3.Transposes [1, 0] S3x8000000
  pads_S3x8000000_S3x8388608_000_03886080 : S3x8000000.Pads (![0, 0] : Fin 2 → Nat) ![0, 388608] ![0, 0] S3x8388608
  h_S_ : 0 < S_.numel
  shapeCasts_S3x8388608_S3x65536x128 : S3x8388608.ShapeCasts S3x65536x128
  inb_S3x4096x128_S1x4096x128_0_0_0 : ∀ a, (![0, 0, 0] : Fin 3 → Nat) a + S1x4096x128.size a ≤ S3x4096x128.size a
  h_S1x4096x128 : 0 < S1x4096x128.numel
  shapeCasts_S1x4096x128_S4096x128 : S1x4096x128.ShapeCasts S4096x128
  inb_S3x4096x128_S1x4096x128_1_0_0 : ∀ a, (![1, 0, 0] : Fin 3 → Nat) a + S1x4096x128.size a ≤ S3x4096x128.size a
  inb_S3x4096x128_S1x4096x128_2_0_0 : ∀ a, (![2, 0, 0] : Fin 3 → Nat) a + S1x4096x128.size a ≤ S3x4096x128.size a
  iota_S4096x128_d0_w32 : S4096x128.Iotas .tc 32 [0]
  iota_S4096x128_d1_w32 : S4096x128.Iotas .tc 32 [1]
  inb_S4096x128_S4096x128_0_0 : ∀ a, (![0, 0] : Fin 2 → Nat) a + S4096x128.size a ≤ S4096x128.size a
  h_S4096x128 : 0 < S4096x128.numel
  shapeCasts_S65536x128_S8388608 : S65536x128.ShapeCasts S8388608
  bcast_S_S160001 : S_.BroadcastsInDim S160001 (![] : Fin 0 → Fin S160001.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  slices_S160001_S160000_0 : S160001.Slices ![0] S160000
  shapeCasts_S160000_S400x400 : S160000.ShapeCasts S400x400
  scatter_S160001_S8388608x1_S8388608_n_0_0_1_wf : ScatterDims.WF S160001 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x4096x128.size a ≤ S3x65536x128.size a
  hwx0_0 : ∀ i : grid0.Coords, EltTy.bits .f32 = 32 ∨ (Rect.block (s := S3x65536x128) S3x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .i32 = 32 ∨ (Rect.block (s := S65536x128) S4096x128.size (cc0_transform_1 i) (hinb0_1 i)).WholeWords (EltTy.packing .i32)

variable [Facts₀]

def scatter_S160001_S8388608x1_S8388608_n_0_0_1 : ScatterDims S160001 S8388608x1 S8388608 where
  updateWindowDims := []
  insertedWindowDims := [0]
  scatterDimsToOperandDims := [0]
  indexVectorDim := 1
  wf := scatter_S160001_S8388608x1_S8388608_n_0_0_1_wf

abbrev win0_0 : Pipeline.Window sig grid0 :=
  Pipeline.Window.ofSpec (Memref.whole main_v2) S3x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S8000000x1 : Shape := ⟨2, ![8000000, 1]⟩
abbrev S8000000 : Shape := ⟨1, ![8000000]⟩
abbrev S_ : Shape := ⟨0, ![]⟩
abbrev S400x400 : Shape := ⟨2, ![400, 400]⟩
abbrev S8000000x2 : Shape := ⟨2, ![8000000, 2]⟩

abbrev nBuf : Space → Nat
  | .hbm => 84
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x1, .f32⟩
  | .hbm, ⟨2, _⟩ => ⟨S8000000, .f32⟩
  | .hbm, ⟨3, _⟩ => ⟨S8000000x1, .f32⟩
  | .hbm, ⟨4, _⟩ => ⟨S8000000, .f32⟩
  | .hbm, ⟨5, _⟩ => ⟨S8000000, .f32⟩
  | .hbm, ⟨6, _⟩ => ⟨S8000000x1, .f32⟩
  | .hbm, ⟨7, _⟩ => ⟨S8000000, .f32⟩
  | .hbm, ⟨8, _⟩ => ⟨S_, .f32⟩
  | .hbm, ⟨9, _⟩ => ⟨S8000000, .f32⟩
  | .hbm, ⟨10, _⟩ => ⟨S8000000, .i1⟩
  | .hbm, ⟨11, _⟩ => ⟨S_, .f32⟩
  | .hbm, ⟨12, _⟩ => ⟨S8000000, .f32⟩
  | .hbm, ⟨13, _⟩ => ⟨S8000000, .i1⟩
  | .hbm, ⟨14, _⟩ => ⟨S8000000, .i1⟩
  | .hbm, ⟨15, _⟩ => ⟨S_, .f32⟩
  | .hbm, ⟨16, _⟩ => ⟨S8000000, .f32⟩
  | .hbm, ⟨17, _⟩ => ⟨S8000000, .f32⟩
  | .hbm, ⟨18, _⟩ => ⟨S_, .f32⟩
  | .hbm, ⟨19, _⟩ => ⟨S8000000, .f32⟩
  | .hbm, ⟨20, _⟩ => ⟨S8000000, .f32⟩
  | .hbm, ⟨21, _⟩ => ⟨S8000000, .f32⟩
  | .hbm, ⟨22, _⟩ => ⟨S8000000, .i32⟩
  | .hbm, ⟨23, _⟩ => ⟨S_, .f32⟩
  | .hbm, ⟨24, _⟩ => ⟨S8000000, .f32⟩
  | .hbm, ⟨25, _⟩ => ⟨S8000000, .f32⟩
  | .hbm, ⟨26, _⟩ => ⟨S_, .f32⟩
  | .hbm, ⟨27, _⟩ => ⟨S8000000, .f32⟩
  | .hbm, ⟨28, _⟩ => ⟨S8000000, .f32⟩
  | .hbm, ⟨29, _⟩ => ⟨S8000000, .f32⟩
  | .hbm, ⟨30, _⟩ => ⟨S8000000, .i32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i1⟩
  | .hbm, ⟨37, _⟩ => ⟨S8000000, .i1⟩
  | .hbm, ⟨38, _⟩ => ⟨S_, .i32⟩
  | .hbm, ⟨39, _⟩ => ⟨S8000000, .i32⟩
  | .hbm, ⟨40, _⟩ => ⟨S8000000, .i1⟩
  | .hbm, ⟨41, _⟩ => ⟨S8000000, .i1⟩
  | .hbm, ⟨42, _⟩ => ⟨S_, .i32⟩
  | .hbm, ⟨43, _⟩ => ⟨S8000000, .i32⟩
  | .hbm, ⟨44, _⟩ => ⟨S8000000, .i1⟩
  | .hbm, ⟨45, _⟩ => ⟨S8000000, .i1⟩
  | .hbm, ⟨46, _⟩ => ⟨S8000000, .i1⟩
  | .hbm, ⟨47, _⟩ => ⟨S8000000, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S8000000, .i32⟩
  | .hbm, ⟨52, _⟩ => ⟨S8000000, .i32⟩
  | .hbm, ⟨53, _⟩ => ⟨S_, .i32⟩
  | .hbm, ⟨54, _⟩ => ⟨S8000000, .i32⟩
  | .hbm, ⟨55, _⟩ => ⟨S8000000, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S8000000, .i32⟩
  | .hbm, ⟨60, _⟩ => ⟨S8000000, .i32⟩
  | .hbm, ⟨61, _⟩ => ⟨S_, .i32⟩
  | .hbm, ⟨62, _⟩ => ⟨S8000000, .i32⟩
  | .hbm, ⟨63, _⟩ => ⟨S8000000, .i32⟩
  | .hbm, ⟨64, _⟩ => ⟨S_, .f32⟩
  | .hbm, ⟨65, _⟩ => ⟨S400x400, .f32⟩
  | .hbm, ⟨66, _⟩ => ⟨S_, .i32⟩
  | .hbm, ⟨67, _⟩ => ⟨S8000000, .i32⟩
  | .hbm, ⟨68, _⟩ => ⟨S8000000, .i1⟩
  | .hbm, ⟨69, _⟩ => ⟨S_, .i32⟩
  | .hbm, ⟨70, _⟩ => ⟨S8000000, .i32⟩
  | .hbm, ⟨71, _⟩ => ⟨S8000000, .i32⟩
  | .hbm, ⟨72, _⟩ => ⟨S8000000, .i32⟩
  | .hbm, ⟨73, _⟩ => ⟨S_, .i32⟩
  | .hbm, ⟨74, _⟩ => ⟨S8000000, .i32⟩
  | .hbm, ⟨75, _⟩ => ⟨S8000000, .i1⟩
  | .hbm, ⟨76, _⟩ => ⟨S_, .i32⟩
  | .hbm, ⟨77, _⟩ => ⟨S8000000, .i32⟩
  | .hbm, ⟨78, _⟩ => ⟨S8000000, .i32⟩
  | .hbm, ⟨79, _⟩ => ⟨S8000000, .i32⟩
  | .hbm, ⟨80, _⟩ => ⟨S8000000x1, .i32⟩
  | .hbm, ⟨81, _⟩ => ⟨S8000000x1, .i32⟩
  | .hbm, ⟨82, _⟩ => ⟨S8000000x2, .i32⟩
  | .hbm, ⟨83, _⟩ => ⟨S400x400, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_c_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v37 : Ref sig .tc := ⟨.hbm, 55, rfl⟩
abbrev main_c_10 : Ref sig .tc := ⟨.hbm, 56, rfl⟩
abbrev main_c_11 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_c_14 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_15 : Ref sig .tc := ⟨.hbm, 73, rfl⟩
abbrev main_v45 : Ref sig .tc := ⟨.hbm, 74, rfl⟩
abbrev main_v46 : Ref sig .tc := ⟨.hbm, 75, rfl⟩
abbrev main_c_16 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  slices_S8000000x3_S8000000x1_0_0 : S8000000x3.Slices ![0, 0] S8000000x1
  shapeCasts_S8000000x1_S8000000 : S8000000x1.ShapeCasts S8000000
  slices_S8000000x3_S8000000x1_0_1 : S8000000x3.Slices ![0, 1] S8000000x1
  slices_S8000000x3_S8000000x1_0_2 : S8000000x3.Slices ![0, 2] S8000000x1
  bcast_S_S8000000 : S_.BroadcastsInDim S8000000 (![] : Fin 0 → Fin S8000000.rank)
  bcast_S_S400x400 : S_.BroadcastsInDim S400x400 (![] : Fin 0 → Fin S400x400.rank)
  bcast_S8000000_S8000000x1_0 : S8000000.BroadcastsInDim S8000000x1 (![0] : Fin 1 → Fin S8000000x1.rank)
  concatenates_S8000000x1_S8000000x1_S8000000x2_d1 : Shape.Concatenates [S8000000x1, S8000000x1] S8000000x2 1
  scatter_S400x400_S8000000x2_S8000000_n_01_01_1_wf : ScatterDims.WF S400x400 S8000000x2 S8000000 [] [0, 1] [0, 1] 1

variable [Facts₀]

def scatter_S400x400_S8000000x2_S8000000_n_01_01_1 : ScatterDims S400x400 S8000000x2 S8000000 where
  updateWindowDims := []
  insertedWindowDims := [0, 1]
  scatterDimsToOperandDims := [0, 1]
  indexVectorDim := 1
  wf := scatter_S400x400_S8000000x2_S8000000_n_01_01_1_wf

class Facts : Prop extends Facts₀ where

variable [Facts]
-- ==== Proof.Input.lean ====
/-
  The staged input array at a point of the cloud.

  Before the region the host transposes the cloud `[8000000, 3]` to `[3, 8000000]`, pads the point axis with 388608
  entries of a constant to `[3, 8388608]`, and reshapes to `[3, 65536, 128]`. So coordinate `ch` of point number
  `p = R · 128 + l`, for `p` below the cloud's length, sits at `(ch, R, l)` of the staged array.
-/
import proofs.«115112_j39281770889515_2_alg».proof.Proof.FrameKernelIdeal
import Idealize.ShloMosaic.Lib.Pipeline.Value
import Idealize.ShloMosaic.Lib.KernelVsHost
import Idealize.ShloMosaic.Lib.StableHlo.Run
import Idealize.ShloMosaic.Lib.ValueIdx

set_option maxRecDepth 16384

noncomputable section

namespace Cert.Hist.Input

open Idealize.ShloMosaic Idealize.ShloMosaic.TcCoe Idealize.ShloMosaic.ValueIdx Idealize.SL.Sem Idealize.ShloMosaic.StableHlo
open Cert.KernelIdeal Cert.KernelIdeal.Gen Cert.KernelIdeal.GenP

variable (m : (ℓ : Loc nD τ sig) → Buf (Elt Ideal) ℓ)

/-- Coordinate `ch` of point `R · 128 + l` of the cloud is what the region finds at `(ch, R, l)` of its input array: the
    reshape reads the padded array at `(ch, R · 128 + l)`, which is inside the transposed cloud, which reads the cloud
    at `(R · 128 + l, ch)`. -/
theorem staged_apply (c : Dev nD) (ch : Fin 3) (R : Fin 65536) (l : Fin 128) (h : R.val * 128 + l.val < 8000000) :
    V m c main_v2 (ix3 ch R l) = m ((c : Thread nD τ).loc main_arg0) (ix2 (⟨R.val * 128 + l.val, h⟩ : Fin 8000000) ch) := by
  have hp : R.val * 128 + l.val < 8388608 := by omega
  dsimp only [V, V0]
  simp only [hostOps0, hostOps0_1, hostOps0_2, List.flatten_cons, List.flatten_nil, List.append_nil, List.cons_append,
    List.nil_append]
  after_results
  show shapeCast S3x65536x128 _ shapeCasts_S3x8388608_S3x65536x128 (ix3 ch R l) = _
  rw [shapeCast_apply _ shapeCasts_S3x8388608_S3x65536x128 (ix3 ch R l) (ix2 ch (⟨R.val * 128 + l.val, hp⟩ : Fin 8388608))
    (by rw [Shape.rowMajor_val_three, Shape.rowMajor_val_two]
        show ch.val * 8388608 + (R.val * 128 + l.val) = (ch.val * 65536 + R.val) * 128 + l.val; omega)]
  show pad (s := S3x8000000) S3x8388608 ![0, 0] ![0, 388608] ![0, 0] _ _ pads_S3x8000000_S3x8388608_000_03886080 h_S_
      (ix2 ch (⟨R.val * 128 + l.val, hp⟩ : Fin 8388608)) = _
  rw [pad_apply_of_inside (s := S3x8000000) _ _ _ _ _ pads_S3x8000000_S3x8388608_000_03886080 h_S_ _ (ix2 ch (⟨R.val * 128 + l.val, h⟩ : Fin 8000000))
    (fun a => by
      match a with
      | ⟨0, _⟩ => show ch.val = 0 + ch.val * (0 + 1); omega
      | ⟨1, _⟩ => show R.val * 128 + l.val = 0 + (R.val * 128 + l.val) * (0 + 1); omega)]
  show transpose (s := S8000000x3) S3x8000000 [1, 0] _ transposes_S8000000x3_S3x8000000_1_0 (ix2 ch (⟨R.val * 128 + l.val, h⟩ : Fin 8000000)) = _
  exact transpose_apply [1, 0] _ transposes_S8000000x3_S3x8000000_1_0 (ix2 ch (⟨R.val * 128 + l.val, h⟩ : Fin 8000000))
    (ix2 (⟨R.val * 128 + l.val, h⟩ : Fin 8000000) ch) (fun b => by
      match b with
      | ⟨0, _⟩ => rfl
      | ⟨1, _⟩ => rfl)

end Cert.Hist.Input

end
-- ==== Proof.Spec.lean ====
/-
  The specification of the obstacle histogram, with no program in sight.

  A point of the cloud is three extended reals `x y z`. Its CELL on an axis is the 32-bit word of
  `round(v / c + 200)` (round to nearest, ties to even; `c` the binary value of the f32 word `0x3DCCCCCD`, the
  float nearest 0.1; the conversion to a word truncates and clamps). A point is KEPT when its negated height
  lies strictly between 0 and 1 and both cells lie in `[0, 400)`. The histogram's entry `(a, b)` is the number of
  kept points whose clipped cells are `(a, b)`.

  One program accumulates a 0/1 weight at the pair of clipped cells; the other packs the pair into the one
  word `400 · cz + cx`, sends every point that is not kept (and every padding point past the cloud's end) to the
  extra bin `160000`, accumulates ones over `160001` bins and drops the last. Both first bring a possibly negative
  index into range by adding the axis' extent (`wrap`), which is the identity on the words met here.
-/
import Idealize.ShloMosaic.PureOps.Ideal
import Idealize.ShloMosaic.Lib.ValueIdx

noncomputable section

namespace Cert.Hist

open Idealize.ShloMosaic

/-- The cell's side, as the f32 word both programs divide by. -/
abbrev side : Ideal .f32 := Ideal.ofBits .f32 0x3DCCCCCD#32
/-- The shift of the origin to the grid's middle: the f32 word of 200. -/
abbrev mid : Ideal .f32 := Ideal.ofBits .f32 0x43480000#32
/-- The f32 words of 0 and of 1. -/
abbrev zeroW : Ideal .f32 := Ideal.ofBits .f32 0x00000000#32
abbrev oneW : Ideal .f32 := Ideal.ofBits .f32 0x3F800000#32

/-- The cell of one coordinate: `round(v / side + mid)` as a 32-bit word. -/
def cell (v : Ideal .f32) : BitVec 32 :=
  FloatOps.fptosi 32 (FloatOps.roundeven (FloatOps.addf (FloatOps.divf v side) mid))

/-- A cell clipped to the grid: `min 399 (max 0 w)`, signed. -/
def clip (w : BitVec 32) : BitVec 32 := IntOp.minsi 399#32 (IntOp.maxsi 0#32 w)

/-- Both cells lie in `[0, 400)`, as one bit. -/
def inGrid (iz ix : BitVec 32) : BitVec 1 :=
  IntOp.andi (IntOp.andi (IntOp.andi (IntOp.cmpi .sge iz 0#32) (IntOp.cmpi .slt iz 400#32)) (IntOp.cmpi .sge ix 0#32))
    (IntOp.cmpi .slt ix 400#32)

/-- The negated height `h` lies strictly between 0 and 1, as one bit. -/
def height (h : Ideal .f32) : BitVec 1 :=
  IntOp.andi (FloatOps.cmpf .ogt h zeroW) (FloatOps.cmpf .olt h oneW)

/-- The point `(x, y, z)` is kept: its negated height is in range and its cells are in the grid. -/
def keep (x y z : Ideal .f32) : BitVec 1 := IntOp.andi (height (-y)) (inGrid (cell z) (cell x))

/-- The packed bin of a point: `400 · clip iz + clip ix` when the bit `k` is set, the extra bin `160000` otherwise. -/
def bin (k : BitVec 1) (iz ix : BitVec 32) : BitVec 32 :=
  Scalar.select k (IntOp.addi (IntOp.muli (clip iz) 400#32) (clip ix)) 160000#32

/-- An index brought into range the way the host does it: a negative word gets the extent `n` added. -/
def wrap (n w : BitVec 32) : BitVec 32 := Scalar.select (IntOp.cmpi .slt w 0#32) (IntOp.addi w n) w

/-- The number of the point at row `r`, lane `l` of block `t`, as the body computes it in 32-bit words. -/
def pointWord (t r l : BitVec 32) : BitVec 32 :=
  IntOp.addi (IntOp.muli (IntOp.addi (Scalar.muli t 4096#32) r) 128#32) l

/-- The point's number is below the cloud's length, as one bit. -/
def inCloud (t r l : BitVec 32) : BitVec 1 := IntOp.cmpi .slt (pointWord t r l) 8000000#32

end Cert.Hist

end
-- ==== Proof.BodyWord.lean ====
/-
  The word the body stores for one point.

  At row `r`, lane `l` of a block the body holds the point's three coordinates (one per channel of the input
  block), computes the negated height `0 − y`, the two cells, the four bound tests, and the point's number
  `(t · 4096 + r) · 128 + l` from the block's number `t`; it stores the packed bin of the clipped cells when the
  point is kept and its number is below the cloud's length, and the extra bin otherwise. Every operation is
  pointwise, so the stored word at `(r, l)` is the specification's `bin` of the three coordinates there.
-/
import proofs.«115112_j39281770889515_2_alg».proof.Proof.Gen.KernelIdeal.Skeleton
import proofs.«115112_j39281770889515_2_alg».proof.Proof.Spec
import Idealize.ShloMosaic.Lib.Pipeline.Value
import Idealize.ShloMosaic.Lib.ValueIdx
import Idealize.ShloMosaic.PureOps.Ideal.Laws

noncomputable section

namespace Cert.Hist.Body

open Idealize.ShloMosaic Idealize.ShloMosaic.ValueIdx Cert.KernelIdeal Cert.KernelIdeal.Gen Cert.Hist

/-- `0 − y = −y` on the extended reals. -/
theorem zero_sub_eq (y : Ideal .f32) : FloatOps.subf (F := Ideal) (φ := .f32) zeroW y = -y := by
  show (Ideal.ofBits .f32 0x00000000#32 : EReal) - y = -y
  rw [Ideal.ofBits_zero_f32, zero_sub]

/-- A channel of the block, `[1, 4096, 128]`, recast to `[4096, 128]`, read at `(r, l)`. -/
theorem channel_apply {α : Type} (v : S1x4096x128.Idx → α) (r : Fin 4096) (l : Fin 128) :
    shapeCast S4096x128 v shapeCasts_S1x4096x128_S4096x128 (ix2 r l) = v (ix3 0 r l) :=
  shapeCast_apply v shapeCasts_S1x4096x128_S4096x128 (ix2 r l) (ix3 0 r l)
    (by rw [Shape.rowMajor_val_three, Shape.rowMajor_val_two]; show (0 * 4096 + r.val) * 128 + l.val = r.val * 128 + l.val; omega)

/-- The row numbers and the lane numbers, read at `(r, l)`. -/
theorem rows_apply (r : Fin 4096) (l : Fin 128) :
    iota .tc S4096x128 32 [0] iota_S4096x128_d0_w32 (ix2 r l) = BitVec.ofNat 32 r.val := by
  show BitVec.ofNat 32 (0 * 4096 + r.val) = _
  rw [Nat.zero_mul, Nat.zero_add]
theorem lanes_apply (r : Fin 4096) (l : Fin 128) :
    iota .tc S4096x128 32 [1] iota_S4096x128_d1_w32 (ix2 r l) = BitVec.ofNat 32 l.val := by
  show BitVec.ofNat 32 (0 * 128 + l.val) = _
  rw [Nat.zero_mul, Nat.zero_add]

/-- THE STORED WORD at `(r, l)`: from the block's three channels `y0 y1 y2` (the loads of channels 0, 1, 2) and the
    block's number `t`, the packed bin of the point's cells under its keep bit and its in-cloud bit. -/
theorem stored_apply (t : BitVec 32) (y0 y1 y2 : Vec Ideal S1x4096x128 .f32) (r : Fin 4096) (l : Fin 128) :
    k0_pay1 t (k0_pay2 y1) (k0_pay3 y2) (k0_pay4 y0) (k0_pay5 y0 y2)
        (iota .tc S4096x128 32 [0] iota_S4096x128_d0_w32) (iota .tc S4096x128 32 [1] iota_S4096x128_d1_w32) 4096#32 (ix2 r l)
      = bin (IntOp.andi (keep (y0 (ix3 0 r l)) (y1 (ix3 0 r l)) (y2 (ix3 0 r l)))
              (inCloud t (BitVec.ofNat 32 r.val) (BitVec.ofNat 32 l.val)))
          (cell (y2 (ix3 0 r l))) (cell (y0 (ix3 0 r l))) := by
  unfold k0_pay1 k0_pay5 k0_pay2 k0_pay3 k0_pay4
  dsimp only
  show Scalar.select _ _ _ = _
  simp only [select_apply, andi, cmpi, addi, muli, maxsi, minsi, cmpf, subf, divf, addf, roundeven, fptosi, broadcast]
  rw [channel_apply y0, channel_apply y1, channel_apply y2, rows_apply, lanes_apply]
  unfold bin keep height inGrid inCloud pointWord clip cell
  rw [← zero_sub_eq]
  rfl

end Cert.Hist.Body

end
-- ==== Proof.Blocks.lean ====
/-
  From blocks to the whole array of packed bins.

  The region's input is the array `A : [3, 65536, 128]` (channel, row, lane): point number `R · 128 + l` has its three
  coordinates at `(·, R, l)`. Grid point `t` (of 16) stages rows `4096 t … 4096 t + 4095` of all three channels and
  writes rows `4096 t … 4096 t + 4095` of the output `[65536, 128]`. The body's stored word at row `r`, lane `l` of
  block `t` is the packed bin of the point at row `4096 t + r`, whose number `(4096 t + r) · 128 + l` is what the body's
  in-cloud test computes from `t`, `r` and `l`. So every block written back is the restriction of ONE function of
  `A`, the 16 blocks cover the output, and the output array after the run is that function.
-/
import proofs.«115112_j39281770889515_2_alg».proof.Proof.FrameKernelIdeal
import proofs.«115112_j39281770889515_2_alg».proof.Proof.BodyWord
import Idealize.ShloMosaic.Lib.Pipeline.Value

set_option maxRecDepth 16384

noncomputable section

namespace Cert.Hist.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Hist

variable (m : (ℓ : Loc nD τ sig) → Buf (Elt Ideal) ℓ) (ρ : Dev nD → PrngReg)

/-- The packed bin of the point at row `R`, lane `l` of the input array `A`: block `R / 4096`, row `R % 4096` inside it. -/
def packed (A : S3x65536x128.Idx → Ideal .f32) : S65536x128.Idx → BitVec 32 := fun i =>
  bin (IntOp.andi (keep (A (ix3 (0 : Fin 3) (i 0) (i 1))) (A (ix3 (1 : Fin 3) (i 0) (i 1))) (A (ix3 (2 : Fin 3) (i 0) (i 1))))
        (inCloud (BitVec.ofNat 32 ((i 0).val / 4096)) (BitVec.ofNat 32 ((i 0).val % 4096)) (BitVec.ofNat 32 (i 1).val)))
    (cell (A (ix3 (2 : Fin 3) (i 0) (i 1)))) (cell (A (ix3 (0 : Fin 3) (i 0) (i 1))))

theorem hz : (![0, 0] : Fin 2 → Nat) = fun _ => 0 := funext fun a => by fin_cases a <;> rfl

/-- The printed index maps, decided over the 16 grid points: the input's block index is `(0, t, 0)`, the output's
    `(t, 0)`, and the grid coordinate is `t`. -/
theorem idx_facts : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0
    ∧ ((grid0.coords t) 0).val = t.val :=
  (by decide +kernel : ∀ t : Fin grid0.N, _)

/-- Channel 0 of block `t` at `(r, l)` is the array at `(0, 4096 t + r, l)`. -/
theorem read0 (c : Dev nD) (t : Fin cfg0.N) (r : Fin 4096) (l : Fin 128) (h : t.val * 4096 + r.val < 65536) :
    View.ld (iblk m c 0 t) r0_0 (ix3 (0 : Fin 1) r l) = V m c main_v2 (ix3 (0 : Fin 3) ⟨t.val * 4096 + r.val, h⟩ l) := by
  obtain ⟨e0, e1, e2, -, -, -⟩ := idx_facts t
  show V m c main_v2 (((cfg0.win 0).blk t).view.emb (r0_0.idx (ix3 (0 : Fin 1) r l))) = _
  refine congrArg (V m c main_v2) (funext fun a => Fin.ext ?_)
  match a with
  | ⟨0, _⟩ => show win0_0.index t (0 : Fin 3) * 3 + 1 * (0 + 1 * 0) = 0; omega
  | ⟨1, _⟩ => show win0_0.index t (1 : Fin 3) * 4096 + 1 * (0 + 1 * r.val) = t.val * 4096 + r.val; omega
  | ⟨2, _⟩ => show win0_0.index t (2 : Fin 3) * 128 + 1 * (0 + 1 * l.val) = l.val; omega

/-- Channel 1 of block `t` at `(r, l)` is the array at `(1, 4096 t + r, l)`. -/
theorem read1 (c : Dev nD) (t : Fin cfg0.N) (r : Fin 4096) (l : Fin 128) (h : t.val * 4096 + r.val < 65536) :
    View.ld (iblk m c 0 t) r0_1 (ix3 (0 : Fin 1) r l) = V m c main_v2 (ix3 (1 : Fin 3) ⟨t.val * 4096 + r.val, h⟩ l) := by
  obtain ⟨e0, e1, e2, -, -, -⟩ := idx_facts t
  show V m c main_v2 (((cfg0.win 0).blk t).view.emb (r0_1.idx (ix3 (0 : Fin 1) r l))) = _
  refine congrArg (V m c main_v2) (funext fun a => Fin.ext ?_)
  match a with
  | ⟨0, _⟩ => show win0_0.index t (0 : Fin 3) * 3 + 1 * (1 + 1 * 0) = 1; omega
  | ⟨1, _⟩ => show win0_0.index t (1 : Fin 3) * 4096 + 1 * (0 + 1 * r.val) = t.val * 4096 + r.val; omega
  | ⟨2, _⟩ => show win0_0.index t (2 : Fin 3) * 128 + 1 * (0 + 1 * l.val) = l.val; omega

/-- Channel 2 of block `t` at `(r, l)` is the array at `(2, 4096 t + r, l)`. -/
theorem read2 (c : Dev nD) (t : Fin cfg0.N) (r : Fin 4096) (l : Fin 128) (h : t.val * 4096 + r.val < 65536) :
    View.ld (iblk m c 0 t) r0_2 (ix3 (0 : Fin 1) r l) = V m c main_v2 (ix3 (2 : Fin 3) ⟨t.val * 4096 + r.val, h⟩ l) := by
  obtain ⟨e0, e1, e2, -, -, -⟩ := idx_facts t
  show V m c main_v2 (((cfg0.win 0).blk t).view.emb (r0_2.idx (ix3 (0 : Fin 1) r l))) = _
  refine congrArg (V m c main_v2) (funext fun a => Fin.ext ?_)
  match a with
  | ⟨0, _⟩ => show win0_0.index t (0 : Fin 3) * 3 + 1 * (2 + 1 * 0) = 2; omega
  | ⟨1, _⟩ => show win0_0.index t (1 : Fin 3) * 4096 + 1 * (0 + 1 * r.val) = t.val * 4096 + r.val; omega
  | ⟨2, _⟩ => show win0_0.index t (2 : Fin 3) * 128 + 1 * (0 + 1 * l.val) = l.val; omega

/-- The packed bin at row `4096 t + r`, lane `l`, spelt with the block's number and the row inside it. -/
theorem packed_at (A : S3x65536x128.Idx → Ideal .f32) (t r l : Nat) (hr : r < 4096) (hl : l < 128) (h : t * 4096 + r < 65536) :
    packed A (ix2 ⟨t * 4096 + r, h⟩ ⟨l, hl⟩)
      = bin (IntOp.andi (keep (A (ix3 (0 : Fin 3) ⟨t * 4096 + r, h⟩ ⟨l, hl⟩)) (A (ix3 (1 : Fin 3) ⟨t * 4096 + r, h⟩ ⟨l, hl⟩))
                (A (ix3 (2 : Fin 3) ⟨t * 4096 + r, h⟩ ⟨l, hl⟩)))
              (inCloud (BitVec.ofNat 32 t) (BitVec.ofNat 32 r) (BitVec.ofNat 32 l)))
          (cell (A (ix3 (2 : Fin 3) ⟨t * 4096 + r, h⟩ ⟨l, hl⟩))) (cell (A (ix3 (0 : Fin 3) ⟨t * 4096 + r, h⟩ ⟨l, hl⟩))) := by
  have d1 : (t * 4096 + r) / 4096 = t := by omega
  have d2 : (t * 4096 + r) % 4096 = r := by omega
  show bin (IntOp.andi _ (inCloud (BitVec.ofNat 32 ((t * 4096 + r) / 4096)) (BitVec.ofNat 32 ((t * 4096 + r) % 4096)) (BitVec.ofNat 32 l))) _ _ = _
  rw [d1, d2]

/-- WHAT POINT `t` WRITES BACK is block `t` of the packed bins of the input array as the region finds it. -/
theorem flushed_eq (c : Dev nD) (t : Fin cfg0.N) :
    (dats m 0 c).flushed 1 t = ((cfg0.win 1).blk t).view.read (Elt Ideal) (packed (V m c main_v2)) := by
  show (cfg0.win 1).cut (grid0.coords t) ((dats m 0 c).after 1 t) = _
  rw [after0_1]
  unfold out0_1
  rw [View.canon_unit_zero hz]
  obtain ⟨e0, e1, e2, e3, e4, e5⟩ := idx_facts t
  have ht : t.val < 16 := t.isLt
  funext y
  obtain ⟨r, l, rfl⟩ : ∃ (r : Fin 4096) (l : Fin 128), y = ix2 r l := ⟨y 0, y 1, eq_ix2 y⟩
  have hr : r.val < 4096 := r.isLt
  have hb : t.val * 4096 + r.val < 65536 := by omega
  refine (Cert.Hist.Body.stored_apply _ _ _ _ r l).trans ?_
  rw [read0 m c t r l hb, read1 m c t r l hb, read2 m c t r l hb, e5]
  have hi : ((cfg0.win 1).blk t).view.emb (ix2 r l) = ix2 (⟨t.val * 4096 + r.val, hb⟩ : Fin 65536) (⟨l.val, l.isLt⟩ : Fin 128) := by
    funext a; apply Fin.ext
    match a with
    | ⟨0, _⟩ => show win0_1.index t (0 : Fin 2) * 4096 + 1 * r.val = t.val * 4096 + r.val; omega
    | ⟨1, _⟩ => show win0_1.index t (1 : Fin 2) * 128 + 1 * l.val = l.val; omega
  show _ = packed (V m c main_v2) (((cfg0.win 1).blk t).view.emb (ix2 r l))
  rw [hi, packed_at (V m c main_v2) t.val r.val l.val hr l.isLt hb]

/-- An index of the output is in point `t`'s block iff each coordinate is in the block's range on its axis. -/
theorem mem_blk (t : Fin cfg0.N) (i : S65536x128.Idx) :
    i ∈ ((cfg0.win 1).blk t).view.set ↔ ∀ a : Fin 2, win0_1.index t a * S4096x128.size a ≤ (i a).val
      ∧ (i a).val < win0_1.index t a * S4096x128.size a + S4096x128.size a := by
  show i ∈ ((View.whole main_v3).slice (win0_1.rect t)).set ↔ _
  rw [View.set_slice_whole, Rect.mem_set_unit]
  exact Iff.rfl

/-- Row `R` of the output is written by point `R / 4096`: the 16 blocks cover the array. -/
theorem cover (i : S65536x128.Idx) : ∃ t : Fin cfg0.N, (cfg0.win 1).flush t = true ∧ i ∈ ((cfg0.win 1).blk t).view.set := by
  have h0 : (i 0).val < 65536 := (i 0).isLt
  have h1 : (i 1).val < 128 := (i 1).isLt
  let t : Fin cfg0.N := ⟨(i 0).val / 4096, by show (i 0).val / 4096 < 16; omega⟩
  obtain ⟨-, -, -, e3, e4, -⟩ := idx_facts t
  have tv : t.val = (i 0).val / 4096 := rfl
  refine ⟨t, flush0_1 t, ?_⟩
  rw [mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- THE OUTPUT ARRAY after the run: the packed bins of the input array as the region finds it. -/
theorem final (c : Dev nD) : (dats m 0 c).arrAt 1 cfg0.N = packed (V m c main_v2) :=
  (dats m 0 c).arrAt_eq_of_cover 1 (packed (V m c main_v2)) (fun t _ => flushed_eq m c t) cover

end Cert.Hist.Blocks

end
-- ==== Proof.LibScatterIndex.lean ====
import Idealize.ShloMosaic.PureOps.Dims
import Idealize.ShloMosaic.Lib.ValueIdx

/-!
  StableHLO's scatter: the operand index an update lands at (`ScatterDims.resultIdx?`), read for
  every set of dimension numbers in general form and then for the two layouts in which every
  operand axis is an inserted window axis named by the scatter map: one index component
  (operand of rank 1, indices `[M, 1]`) and two index components (operand of rank 2, indices
  `[M, 2]`). In both the update `j` lands at the operand index whose coordinates are the
  components of row `j` of the indices, read as signed integers, and is dropped when one of them
  is outside the operand.
-/

namespace Cert.LibScatterIndex

open Idealize.ShloMosaic
open Idealize.ShloMosaic.ValueIdx

section General
variable {s si u : Shape} (d : ScatterDims s si u)

/-- On an inserted operand axis the window coordinate is zero: no update axis runs along it. -/
theorem window_inserted (j : u.Idx) (a : Fin s.rank) (ha : a ∈ d.insertedWindowDims) :
    d.window j a = 0 := by
  unfold ScatterDims.window
  rw [dif_neg]
  intro h
  have h2 := (List.mem_filter.1 h).2
  simp only [decide_not, Bool.not_eq_eq_eq_not, Bool.not_true, decide_eq_false_iff_not] at h2
  exact h2 ha

/-- On an operand axis that the scatter map names, the start of the window is the component of
    the start index for that axis, read signed off the scatter indices. -/
theorem start_mapped {w : Nat} (j : u.Idx) (idx : IVec si w) (a : Fin s.rank)
    (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- The update `j` lands at the operand index `i` exactly when, on every operand axis, start plus
    window coordinate is the coordinate of `i` (as integers): the range condition of the result
    index is then the one `i` already satisfies, and when it fails there is no such `i`. -/
theorem resultIdx?_eq_some_iff {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · constructor
    · intro e a
      have e1 := congrArg Fin.val (congrFun (Option.some.inj e) a)
      simp only at e1
      have := h a
      omega
    · intro hi
      refine congrArg some ?_
      funext a
      refine Fin.ext ?_
      show (d.start j idx a + (d.window j a : ℤ)).toNat = (i a).val
      rw [hi a, Int.toNat_natCast]
  · constructor
    · intro e; cases e
    · intro hi
      exfalso
      apply h
      intro a
      rw [hi a]
      exact ⟨Int.natCast_nonneg _, by exact_mod_cast (i a).isLt⟩

end General

section One
variable {N M w : Nat}

/-- The dimension numbers of the one-component layout: no update window axes, the operand's one
    axis inserted and named by the scatter map, the index vector along axis `1` of the indices. -/
abbrev oneDims (N M : Nat) (wf : ScatterDims.WF (⟨1, ![N]⟩ : Shape) ⟨2, ![M, 1]⟩ ⟨1, ![M]⟩ [] [0] [0] 1) :
    ScatterDims ⟨1, ![N]⟩ ⟨2, ![M, 1]⟩ ⟨1, ![M]⟩ :=
  ScatterDims.mk (s := ⟨1, ![N]⟩) (si := ⟨2, ![M, 1]⟩) (u := ⟨1, ![M]⟩) [] [0] [0] 1 wf

/-- One index component: the scatter-indices index at which update `j` reads its only start
    component is row `j`, column `0`. -/
theorem siIdx_one (wf : ScatterDims.WF (⟨1, ![N]⟩ : Shape) ⟨2, ![M, 1]⟩ ⟨1, ![M]⟩ [] [0] [0] 1)
    (j : (⟨1, ![M]⟩ : Shape).Idx) (c : Fin 1) :
    (oneDims N M wf).siIdx j c = ix2 (j 0) 0 := by
  funext b
  refine Fin.ext ?_
  match b with
  | ⟨0, _⟩ => rfl
  | ⟨1, _⟩ => exact congrArg Fin.val (Subsingleton.elim c 0)

/-- One index component: on the operand's axis, start plus window coordinate is entry `(j, 0)`
    of the indices, read signed. -/
theorem start_add_window_one (wf : ScatterDims.WF (⟨1, ![N]⟩ : Shape) ⟨2, ![M, 1]⟩ ⟨1, ![M]⟩ [] [0] [0] 1)
    (j : (⟨1, ![M]⟩ : Shape).Idx) (idx : IVec (⟨2, ![M, 1]⟩ : Shape) w) (a : Fin 1) :
    (oneDims N M wf).start j idx a + ((oneDims N M wf).window j a : ℤ) = (idx (ix2 (j 0) 0)).toInt := by
  have ha : a ∈ ([0] : List (Fin 1)) := List.mem_singleton.mpr (Subsingleton.elim a 0)
  rw [window_inserted (oneDims N M wf) j a ha, start_mapped (oneDims N M wf) j idx a ha, siIdx_one wf j]
  simp

/-- ONE INDEX COMPONENT (an operand `[N]`, scatter indices `[M, 1]`, updates `[M]`, the operand's
    axis inserted and named by the scatter map): update `j` lands at operand index `i` exactly
    when entry `(j, 0)` of the indices, read as a signed integer, is the coordinate of `i`; an
    entry that is negative or at least `N` lands nowhere. -/
theorem resultIdx_one (wf : ScatterDims.WF (⟨1, ![N]⟩ : Shape) ⟨2, ![M, 1]⟩ ⟨1, ![M]⟩ [] [0] [0] 1)
    (j : (⟨1, ![M]⟩ : Shape).Idx) (idx : IVec (⟨2, ![M, 1]⟩ : Shape) w) (i : (⟨1, ![N]⟩ : Shape).Idx) :
    (ScatterDims.mk (s := ⟨1, ![N]⟩) (si := ⟨2, ![M, 1]⟩) (u := ⟨1, ![M]⟩) [] [0] [0] 1 wf).resultIdx? j idx = some i
      ↔ (idx (ix2 (j 0) 0)).toInt = ((i 0).val : ℤ) := by
  rw [resultIdx?_eq_some_iff (oneDims N M wf)]
  constructor
  · intro h
    rw [← start_add_window_one wf j idx 0]
    exact h 0
  · intro h a
    obtain rfl : a = 0 := Subsingleton.elim _ _
    rw [start_add_window_one wf j idx 0]
    exact h

end One

section Two
variable {N0 N1 M w : Nat}

/-- The dimension numbers of the two-component layout: no update window axes, both operand axes
    inserted and named, in order, by the scatter map, the index vector along axis `1` of the
    indices. -/
abbrev twoDims (N0 N1 M : Nat)
    (wf : ScatterDims.WF (⟨2, ![N0, N1]⟩ : Shape) ⟨2, ![M, 2]⟩ ⟨1, ![M]⟩ [] [0, 1] [0, 1] 1) :
    ScatterDims ⟨2, ![N0, N1]⟩ ⟨2, ![M, 2]⟩ ⟨1, ![M]⟩ :=
  ScatterDims.mk (s := ⟨2, ![N0, N1]⟩) (si := ⟨2, ![M, 2]⟩) (u := ⟨1, ![M]⟩) [] [0, 1] [0, 1] 1 wf

/-- Two index components: the scatter-indices index at which update `j` reads component `c` of
    its start index is row `j`, column `c`. -/
theorem siIdx_two (wf : ScatterDims.WF (⟨2, ![N0, N1]⟩ : Shape) ⟨2, ![M, 2]⟩ ⟨1, ![M]⟩ [] [0, 1] [0, 1] 1)
    (j : (⟨1, ![M]⟩ : Shape).Idx) (c : Fin 2) :
    (twoDims N0 N1 M wf).siIdx j c = ix2 (j 0) c := by
  funext b
  refine Fin.ext ?_
  match b with
  | ⟨0, _⟩ => rfl
  | ⟨1, _⟩ => rfl

/-- In the list `[0, 1]` of the two axes, each axis sits at its own position. -/
theorem idxOf_two (a : Fin 2) : List.idxOf a ([0, 1] : List (Fin 2)) = a.val := by
  revert a; decide

/-- Two index components: on operand axis `a`, start plus window coordinate is entry `(j, a)`
    of the indices, read signed. -/
theorem start_add_window_two
    (wf : ScatterDims.WF (⟨2, ![N0, N1]⟩ : Shape) ⟨2, ![M, 2]⟩ ⟨1, ![M]⟩ [] [0, 1] [0, 1] 1)
    (j : (⟨1, ![M]⟩ : Shape).Idx) (idx : IVec (⟨2, ![M, 2]⟩ : Shape) w) (a : Fin 2) :
    (twoDims N0 N1 M wf).start j idx a + ((twoDims N0 N1 M wf).window j a : ℤ)
      = (idx (ix2 (j 0) a)).toInt := by
  have ha : a ∈ ([0, 1] : List (Fin 2)) := by revert a; decide
  rw [window_inserted (twoDims N0 N1 M wf) j a ha, start_mapped (twoDims N0 N1 M wf) j idx a ha,
    siIdx_two wf j]
  have hc : ∀ h, (⟨List.idxOf a ([0, 1] : List (Fin 2)), h⟩ : Fin 2) = a :=
    fun _ => Fin.ext (idxOf_two a)
  rw [hc]
  simp

/-- TWO INDEX COMPONENTS (an operand `[N0, N1]`, scatter indices `[M, 2]`, updates `[M]`, both
    operand axes inserted and named in order by the scatter map): update `j` lands at operand
    index `i` exactly when entries `(j, 0)` and `(j, 1)` of the indices, read as signed integers,
    are the two coordinates of `i`; a row with an entry outside its axis lands nowhere. -/
theorem resultIdx_two
    (wf : ScatterDims.WF (⟨2, ![N0, N1]⟩ : Shape) ⟨2, ![M, 2]⟩ ⟨1, ![M]⟩ [] [0, 1] [0, 1] 1)
    (j : (⟨1, ![M]⟩ : Shape).Idx) (idx : IVec (⟨2, ![M, 2]⟩ : Shape) w) (i : (⟨2, ![N0, N1]⟩ : Shape).Idx) :
    (ScatterDims.mk (s := ⟨2, ![N0, N1]⟩) (si := ⟨2, ![M, 2]⟩) (u := ⟨1, ![M]⟩) [] [0, 1] [0, 1] 1 wf).resultIdx? j idx = some i
      ↔ (idx (ix2 (j 0) 0)).toInt = ((i 0).val : ℤ) ∧ (idx (ix2 (j 0) 1)).toInt = ((i 1).val : ℤ) := by
  rw [resultIdx?_eq_some_iff (twoDims N0 N1 M wf)]
  constructor
  · intro h
    refine ⟨?_, ?_⟩
    · rw [← start_add_window_two wf j idx 0]
      exact h 0
    · rw [← start_add_window_two wf j idx 1]
      exact h 1
  · intro h a
    rw [start_add_window_two wf j idx a]
    match a with
    | ⟨0, _⟩ => exact h.1
    | ⟨1, _⟩ => exact h.2

end Two

end Cert.LibScatterIndex
-- ==== Proof.LibScatterAddSum.lean ====
/-
  The host's accumulating scatter at the exact instance, read at an index.

  Over the extended reals the accumulation `x.at[idx].add(u)` is an exact sum whatever the order of the updates:
  element `i` of the result is `x i` plus the sum of the updates whose result index is `i`. Stated once over abstract
  shapes, so that a proof about a program's concrete arrays rewrites with it and never has to unfold the sum.
-/
import Idealize.ShloMosaic.PureOps.Ideal
import Idealize.ShloMosaic.PureOps.Contract

noncomputable section

namespace Cert.LibScatterAddSum

open Idealize.ShloMosaic

/-- `Host.scatterAdd` at the exact instance, at index `i`: the operand there plus the sum of the updates that land
    there (`ScatterDims.resultIdx?`). -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i
      = Ideal.hostScatterAdd d x idx upd i := rfl

/-- The sum itself, by the definition. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

end Cert.LibScatterAddSum

end
-- ==== Proof.Tail.lean ====
/-
  The host's tail: from the packed bins to the histogram.

  After the region the host flattens the packed bins `[65536, 128]` to `[8388608]` (point `p` at row `p / 128`, lane
  `p % 128`), brings each into range (`wrap` by 160001), accumulates a one per point into 160001 zeroed bins, drops
  the last bin and reshapes the rest to `[400, 400]`. At the exact instance the accumulation is a sum: entry `(a, b)`
  is `0` plus a one for every point whose wrapped bin is `400 a + b`.
-/
import proofs.«115112_j39281770889515_2_alg».proof.Proof.Blocks
import proofs.«115112_j39281770889515_2_alg».proof.Proof.LibScatterIndex
import proofs.«115112_j39281770889515_2_alg».proof.Proof.LibScatterAddSum
import Idealize.ShloMosaic.Lib.StableHlo.Run
import Idealize.ShloMosaic.Lib.Pipeline.Value

set_option maxRecDepth 16384

noncomputable section

namespace Cert.Hist.Tail

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.Hist Cert.Hist.Blocks

variable (m : (ℓ : Loc nD τ sig) → Buf (Elt Ideal) ℓ)

/-- The flat bins, brought into range, as the `[8388608, 1]` index array the accumulation reads. -/
def flatIdx (P : S65536x128.Idx → BitVec 32) : S8388608x1.Idx → BitVec 32 :=
  broadcastInDim S8388608x1 ![0] bcast_S8388608_S8388608x1_0
    (select
      (cmpi .slt (shapeCast S8388608 P shapeCasts_S65536x128_S8388608)
        (broadcastInDim S8388608 ![] bcast_S_S8388608 (constantI S_ 32 0#32)))
      (addi (shapeCast S8388608 P shapeCasts_S65536x128_S8388608)
        (broadcastInDim S8388608 ![] bcast_S_S8388608 (constantI S_ 32 160001#32)))
      (shapeCast S8388608 P shapeCasts_S65536x128_S8388608))

/-- The histogram the host computes from the packed bins `P`. -/
def tailHist (P : S65536x128.Idx → BitVec 32) : S400x400.Idx → Ideal .f32 :=
  shapeCast S400x400
    (extractStridedSlice S160000 ![0]
      (Host.scatterAdd (F := Ideal) scatter_S160001_S8388608x1_S8388608_n_0_0_1
        (broadcastInDim S160001 ![] bcast_S_S160001 (constant (F := Ideal) S_ .f32 0x00000000#32))
        (flatIdx P)
        (broadcastInDim S8388608 ![] bcast_S_S8388608 (constant (F := Ideal) S_ .f32 0x3F800000#32)))
      slices_S160001_S160000_0)
    shapeCasts_S160000_S400x400

/-- The region leaves the packed bins of the staged input in the output's array. -/
theorem out_array (c : Dev nD) :
    Pipeline.withArrays (cfgs 0).spec c (V0 m c) (fun w => (dats m 0 c).arrAt w (cfgs 0).N) (Proc.tc.devRef main_v3)
      = packed (V m c main_v2) :=
  (Pipeline.withArrays_arr spec0 launch0.win.arr_inj c _ _ 1).trans (final m c)

/-- THE RESULT BUFFER after the host's tail: the histogram of the packed bins of the staged input. -/
theorem tail_eq (c : Dev nD) :
    Pipeline.afterTail₀ cfgs (dats m) 0 (V0 m) [hostOps1] c main_v15 = tailHist (packed (V m c main_v2)) := by
  unfold Pipeline.afterTail₀
  show StableHlo.after hostOps1 _ (Proc.devRef .tc main_v15) = _
  after_results
  rw [out_array m c]
  rfl

/-- Point `j` of the flat array sits at row `j / 128`, lane `j % 128`. -/
def rowLane (j : S8388608.Idx) : S65536x128.Idx :=
  ix2 (⟨(j 0).val / 128, by have h : (j 0).val < 8388608 := (j 0).isLt; show (j 0).val / 128 < 65536; omega⟩ : Fin 65536)
    (⟨(j 0).val % 128, Nat.mod_lt _ (by decide)⟩ : Fin 128)

/-- The index array at point `j`: the wrapped bin of the point at its row and lane. -/
theorem flatIdx_apply (P : S65536x128.Idx → BitVec 32) (j : S8388608.Idx) :
    flatIdx P (ix2 (j 0) 0) = wrap 160001#32 (P (rowLane j)) := by
  unfold flatIdx
  rw [broadcastInDim_apply _ bcast_S8388608_S8388608x1_0 _ (ix2 (j 0) 0) j (fun a => by
    match a with
    | ⟨0, _⟩ => show (j 0).val = if (8388608 : Nat) = 1 then 0 else (j 0).val; rw [if_neg (by decide)])]
  have hc : shapeCast S8388608 P shapeCasts_S65536x128_S8388608 j = P (rowLane j) :=
    shapeCast_apply P shapeCasts_S65536x128_S8388608 j (rowLane j) (by
      rw [Shape.rowMajor_val_two, Shape.rowMajor_val_one]
      show (j 0).val / 128 * 128 + (j 0).val % 128 = (j 0).val; omega)
  show Scalar.select (IntOp.cmpi .slt (shapeCast S8388608 P shapeCasts_S65536x128_S8388608 j) 0#32)
      (IntOp.addi (shapeCast S8388608 P shapeCasts_S65536x128_S8388608 j) 160001#32)
      (shapeCast S8388608 P shapeCasts_S65536x128_S8388608 j) = _
  rw [hc]
  rfl

/-- The zeroed bins hold the zero word, and every update is the word of one. -/
theorem zeros_apply (k : S160001.Idx) :
    broadcastInDim S160001 ![] bcast_S_S160001 (constant (F := Ideal) S_ .f32 0x00000000#32) k = zeroW :=
  (broadcastInDim_apply ![] bcast_S_S160001 _ k ix0 (fun a => a.elim0)).trans (constant_apply _ _)
theorem ones_apply (j : S8388608.Idx) :
    broadcastInDim S8388608 ![] bcast_S_S8388608 (constant (F := Ideal) S_ .f32 0x3F800000#32) j = oneW :=
  (broadcastInDim_apply ![] bcast_S_S8388608 _ j ix0 (fun a => a.elim0)).trans (constant_apply _ _)

/-- THE HISTOGRAM at `(a, b)`: zero plus a one for every point whose wrapped bin is `400 a + b`. -/
theorem tail_apply (P : S65536x128.Idx → BitVec 32) (a b : Fin 400) :
    tailHist P (ix2 a b)
      = zeroW + ∑ j ∈ Finset.univ.filter (fun j : S8388608.Idx =>
          (wrap 160001#32 (P (rowLane j))).toInt = ((a.val * 400 + b.val : ℕ) : ℤ)), oneW := by
  have hk : a.val * 400 + b.val < 160000 := by have := a.isLt; have := b.isLt; omega
  have hk' : a.val * 400 + b.val < 160001 := by omega
  unfold tailHist
  rw [shapeCast_apply _ shapeCasts_S160000_S400x400 (ix2 a b) (ix1 (⟨a.val * 400 + b.val, hk⟩ : Fin 160000))
    (by rw [Shape.rowMajor_val_one, Shape.rowMajor_val_two]; rfl)]
  rw [extractStridedSlice_apply ![0] _ slices_S160001_S160000_0 (ix1 (⟨a.val * 400 + b.val, hk⟩ : Fin 160000))
    (ix1 (⟨a.val * 400 + b.val, hk'⟩ : Fin 160001)) (fun x => by
      match x with
      | ⟨0, _⟩ => show a.val * 400 + b.val = 0 + (a.val * 400 + b.val); omega)]
  rw [Cert.LibScatterAddSum.scatterAdd_apply, Cert.LibScatterAddSum.hostScatterAdd_apply]
  refine congrArg₂ (· + ·) (zeros_apply _) (Finset.sum_congr (Finset.ext fun j => ?_) fun j _ => ones_apply j)
  rw [Finset.mem_filter, Finset.mem_filter]
  refine and_congr_right fun _ => ?_
  rw [← flatIdx_apply P j]
  exact Cert.LibScatterIndex.resultIdx_one scatter_S160001_S8388608x1_S8388608_n_0_0_1_wf j (flatIdx P)
    (ix1 (⟨a.val * 400 + b.val, hk'⟩ : Fin 160001))

end Cert.Hist.Tail

end
-- ==== Proof.Words.lean ====
/-
  Facts about 32-bit words used by the obstacle histogram: the clipped cell lies in `[0, 400)`; bringing a
  non-negative index into range changes nothing; the packed bin `400 · cz + cx` determines the pair `(cz, cx)`
  and is never the extra bin `160000`; the number of a point, computed in 32-bit words, is the natural number
  `(t · 4096 + r) · 128 + l` (below `2^23`, so nothing overflows); and the extended reals denoted by the float
  words of 0 and 1 and by a single bit read as an unsigned integer.
-/
import proofs.«115112_j39281770889515_2_alg».proof.Proof.Spec
import Idealize.ShloMosaic.PureOps.Ideal.Laws

noncomputable section

namespace Cert.Hist

open Idealize.ShloMosaic

/-- The signed comparison of two words is the comparison of their signed values. -/
theorem slt_iff (x y : BitVec 32) : x.slt y = true ↔ x.toInt < y.toInt := by
  simp [BitVec.slt]

/-- The clipped word's signed value is `min 399 (max 0 w)` of the word's signed value. -/
theorem clip_toInt (w : BitVec 32) : (clip w).toInt = min 399 (max 0 w.toInt) := by
  unfold clip IntOp.minsi IntOp.maxsi
  have h0 : (0#32 : BitVec 32).toInt = 0 := by decide
  have h399 : (399#32 : BitVec 32).toInt = 399 := by decide
  by_cases h1 : (w.slt 0#32) = true
  · have h1' := (slt_iff _ _).1 h1
    rw [if_pos h1]
    by_cases h2 : ((399#32 : BitVec 32).slt 0#32) = true
    · have := (slt_iff _ _).1 h2; omega
    · rw [if_neg h2]; omega
  · have h1' : ¬ w.toInt < (0#32 : BitVec 32).toInt := fun h => h1 ((slt_iff _ _).2 h)
    rw [if_neg h1]
    by_cases h2 : ((399#32 : BitVec 32).slt w) = true
    · have := (slt_iff _ _).1 h2; rw [if_pos h2]; omega
    · have h2' : ¬ (399#32 : BitVec 32).toInt < w.toInt := fun h => h2 ((slt_iff _ _).2 h)
      rw [if_neg h2]; omega

/-- A clipped cell lies in `[0, 400)`. -/
theorem clip_range (w : BitVec 32) : 0 ≤ (clip w).toInt ∧ (clip w).toInt < 400 := by
  rw [clip_toInt]
  omega

/-- The f32 word `0x3F800000` denotes the real 1. -/
theorem oneW_eq : (oneW : EReal) = 1 := by
  simp [Ideal.ofBits, Ideal.ieee, -EReal.coe_mul]; norm_num

/-- `0 − y = −y` on the extended reals, the zero being the one the f32 zero word denotes. -/
theorem zeroW_sub (y : Ideal .f32) : FloatOps.subf (F := Ideal) (φ := .f32) zeroW y = -y := by
  rw [Ideal.subf_def]
  show Ideal.ofBits .f32 0x00000000#32 - y = -y
  rw [Ideal.ofBits_zero_f32, zero_sub]

/-- One bit read as an unsigned integer is 1 when set and 0 when clear. -/
theorem uitofp_bit (k : BitVec 1) : FloatOps.uitofp (F := Ideal) .f32 k = if k = 1#1 then (1 : EReal) else 0 := by
  show ((k.toNat : ℝ) : EReal) = _
  have : k = 0#1 ∨ k = 1#1 := by
    revert k; decide
  rcases this with rfl | rfl <;> simp

/-- Bringing a non-negative index into range is the identity. -/
theorem wrap_of_nonneg (n w : BitVec 32) (h : 0 ≤ w.toInt) : wrap n w = w := by
  unfold wrap Scalar.select IntOp.cmpi
  have h0 : (0#32 : BitVec 32).toInt = 0 := by decide
  have hn : (w.slt 0#32) = false := by
    cases hs : w.slt 0#32
    · rfl
    · have := (slt_iff _ _).1 hs; omega
  simp [hn]

/-- For `0 ≤ x, y < 400` the word `x · 400 + y` has the signed value `x · 400 + y`: at most `159999`, no overflow. -/
theorem packed_toInt (x y : BitVec 32) (hx0 : 0 ≤ x.toInt) (hx : x.toInt < 400) (hy0 : 0 ≤ y.toInt) (hy : y.toInt < 400) :
    (IntOp.addi (IntOp.muli x 400#32) y).toInt = x.toInt * 400 + y.toInt := by
  unfold IntOp.addi IntOp.muli
  have h400 : (400#32 : BitVec 32).toInt = 400 := by decide
  rw [BitVec.toInt_add, BitVec.toInt_mul, h400]
  have e1 : (x.toInt * 400).bmod (2 ^ 32) = x.toInt * 400 := by
    apply Int.bmod_eq_of_le <;> omega
  rw [e1]
  apply Int.bmod_eq_of_le <;> omega

/-- The packed bin of a point is `a · 400 + b` exactly when the point's bit is set and its clipped cells are
    `(a, b)`: with the bit set the bin is `400 · cz + cx` with `0 ≤ cz, cx < 400`, which determines `(cz, cx)`;
    with the bit clear it is `160000`, which is no `a · 400 + b` with `a, b < 400`. -/
theorem lands_packed_iff (k : BitVec 1) (iz ix : BitVec 32) (a b : Fin 400) :
    (wrap 160001#32 (bin k iz ix)).toInt = ((a.val * 400 + b.val : ℕ) : ℤ)
      ↔ k = 1#1 ∧ (clip iz).toInt = (a.val : ℤ) ∧ (clip ix).toInt = (b.val : ℤ) := by
  obtain ⟨hz0, hz⟩ := clip_range iz
  obtain ⟨hx0, hx⟩ := clip_range ix
  have ha := a.isLt
  have hb := b.isLt
  by_cases hk : k = 1#1
  · have hbin : bin k iz ix = IntOp.addi (IntOp.muli (clip iz) 400#32) (clip ix) := by
      unfold bin Scalar.select
      exact if_pos hk
    have e := packed_toInt (clip iz) (clip ix) hz0 hz hx0 hx
    rw [hbin, wrap_of_nonneg _ _ (by rw [e]; omega), e]
    constructor
    · intro h
      push_cast at h
      refine ⟨hk, ?_, ?_⟩ <;> omega
    · rintro ⟨_, h1, h2⟩
      push_cast
      omega
  · have hbin : bin k iz ix = 160000#32 := by
      unfold bin Scalar.select
      exact if_neg hk
    have h16 : (160000#32 : BitVec 32).toInt = 160000 := by decide
    rw [hbin, wrap_of_nonneg _ _ (by rw [h16]; omega), h16]
    constructor
    · intro h
      push_cast at h
      omega
    · rintro ⟨h, _⟩
      exact absurd h hk

/-- On the pair of clipped cells, bringing each into range changes nothing. -/
theorem lands_pair_iff (iz ix : BitVec 32) (a b : Fin 400) :
    ((wrap 400#32 (clip iz)).toInt = (a.val : ℤ) ∧ (wrap 400#32 (clip ix)).toInt = (b.val : ℤ))
      ↔ ((clip iz).toInt = (a.val : ℤ) ∧ (clip ix).toInt = (b.val : ℤ)) := by
  rw [wrap_of_nonneg _ _ (clip_range iz).1, wrap_of_nonneg _ _ (clip_range ix).1]

/-- The point's number in 32-bit words is the word of the natural number `(t · 4096 + r) · 128 + l`. -/
theorem pointWord_ofNat (t : Fin 16) (r : Fin 4096) (l : Fin 128) :
    pointWord (BitVec.ofNat 32 t.val) (BitVec.ofNat 32 r.val) (BitVec.ofNat 32 l.val)
      = BitVec.ofNat 32 ((t.val * 4096 + r.val) * 128 + l.val) := by
  have ht := t.isLt
  have hr := r.isLt
  have hl := l.isLt
  unfold pointWord IntOp.addi IntOp.muli Scalar.muli IntOp.muli
  apply BitVec.eq_of_toNat_eq
  simp only [BitVec.toNat_add, BitVec.toNat_mul, BitVec.toNat_ofNat]
  omega

/-- A Boolean as one bit is the set bit exactly when it is true. -/
theorem ofBool_eq_one_iff (c : Bool) : BitVec.ofBool c = 1#1 ↔ c = true := by
  cases c <;> decide

/-- The point at row `r`, lane `l` of block `t` is in the cloud exactly when its number is below the cloud's
    length: the number is below `2^23`, so its word's signed value is the number itself. -/
theorem inCloud_iff (t : Fin 16) (r : Fin 4096) (l : Fin 128) :
    inCloud (BitVec.ofNat 32 t.val) (BitVec.ofNat 32 r.val) (BitVec.ofNat 32 l.val) = 1#1
      ↔ (t.val * 4096 + r.val) * 128 + l.val < 8000000 := by
  have ht := t.isLt
  have hr := r.isLt
  have hl := l.isLt
  unfold inCloud IntOp.cmpi
  rw [pointWord_ofNat, ofBool_eq_one_iff, slt_iff]
  have h8 : (8000000#32 : BitVec 32).toInt = 8000000 := by decide
  have hn : (BitVec.ofNat 32 ((t.val * 4096 + r.val) * 128 + l.val)).toInt
      = (((t.val * 4096 + r.val) * 128 + l.val : ℕ) : ℤ) := by
    have hm : ((t.val * 4096 + r.val) * 128 + l.val) % 2 ^ 32 = (t.val * 4096 + r.val) * 128 + l.val :=
      Nat.mod_eq_of_lt (by omega)
    rw [BitVec.toInt_eq_toNat_cond, BitVec.toNat_ofNat, hm, if_pos (by omega)]
  rw [h8, hn]
  omega

end Cert.Hist

end
-- ==== Proof.Count.lean ====
/-
  The counting identity behind the obstacle histogram. One side counts, over the padded list of `2^23` points, the
  points whose bit is set and whose clipped cells are `(a, b)`, each with weight one; the other side sums, over the
  cloud's `8 000 000` points whose clipped cells are `(a, b)`, the point's bit read as 0 or 1. A set bit occurs only
  below the cloud's length, and there the two lists carry the same bit and the same cells, so the map "same number"
  is a bijection between the two sets of points counted, and both sides are the number of those points.
-/
import proofs.«115112_j39281770889515_2_alg».proof.Proof.Words

noncomputable section

namespace Cert.Hist

open Idealize.ShloMosaic

/-- The index sets of the padded list (`2^23` points) and of the cloud (`8 000 000` points). -/
abbrev IPad : Type := (⟨1, ![8388608]⟩ : Shape).Idx
abbrev ICloud : Type := (⟨1, ![8000000]⟩ : Shape).Idx

/-- A cloud index as a padded index: the same number. -/
def up (j : ICloud) : IPad := ValueIdx.ix1 ⟨(j 0).val, lt_trans (j 0).isLt (by norm_num)⟩

/-- A padded index as a cloud index: the same number when it is below the cloud's length (0 otherwise). -/
def down (p : IPad) : ICloud :=
  if h : (p 0).val < 8000000 then ValueIdx.ix1 ⟨(p 0).val, h⟩ else ValueIdx.ix1 ⟨0, by norm_num⟩

theorem down_of_lt (p : IPad) (h : (p 0).val < 8000000) : down p = ValueIdx.ix1 ⟨(p 0).val, h⟩ := dif_pos h

theorem up_down (p : IPad) (h : (p 0).val < 8000000) : up (down p) = p := by
  rw [down_of_lt p h]
  conv_rhs => rw [ValueIdx.eq_ix1 p]
  rfl

theorem down_up (j : ICloud) : down (up j) = j := by
  have h : ((up j) 0).val < 8000000 := (j 0).isLt
  rw [down_of_lt _ h]
  conv_rhs => rw [ValueIdx.eq_ix1 j]
  rfl

theorem count_eq (KT : IPad → BitVec 1) (BZ BX : IPad → BitVec 32) (KR : ICloud → BitVec 1) (RZ RX : ICloud → BitVec 32)
    (hcloud : ∀ p : IPad, KT p = 1#1 → (p 0).val < 8000000)
    (hsame : ∀ (p : IPad) (h : (p 0).val < 8000000),
      (KT p = 1#1 ↔ KR (ValueIdx.ix1 ⟨(p 0).val, h⟩) = 1#1) ∧ BZ p = RZ (ValueIdx.ix1 ⟨(p 0).val, h⟩)
        ∧ BX p = RX (ValueIdx.ix1 ⟨(p 0).val, h⟩))
    (a b : Fin 400) :
    (∑ p ∈ Finset.univ.filter (fun p : IPad =>
        KT p = 1#1 ∧ (clip (BZ p)).toInt = (a.val : ℤ) ∧ (clip (BX p)).toInt = (b.val : ℤ)), (oneW : EReal))
      = ∑ j ∈ Finset.univ.filter (fun j : ICloud =>
          (clip (RZ j)).toInt = (a.val : ℤ) ∧ (clip (RX j)).toInt = (b.val : ℤ)),
          FloatOps.uitofp (F := Ideal) .f32 (KR j) := by
  classical
  simp only [uitofp_bit, oneW_eq]
  rw [← Finset.sum_filter, Finset.filter_filter]
  refine Finset.sum_nbij' down up ?_ ?_ ?_ ?_ ?_
  · intro p hp
    rw [Finset.mem_filter] at hp ⊢
    obtain ⟨_, hk, hz, hx⟩ := hp
    have h := hcloud p hk
    obtain ⟨e1, e2, e3⟩ := hsame p h
    rw [down_of_lt p h]
    refine ⟨Finset.mem_univ _, ⟨?_, ?_⟩, ?_⟩
    · rw [← e2]; exact hz
    · rw [← e3]; exact hx
    · exact e1.1 hk
  · intro j hj
    rw [Finset.mem_filter] at hj ⊢
    obtain ⟨_, ⟨hz, hx⟩, hk⟩ := hj
    have h : ((up j) 0).val < 8000000 := (j 0).isLt
    obtain ⟨e1, e2, e3⟩ := hsame (up j) h
    have hj' : ValueIdx.ix1 ⟨((up j) 0).val, h⟩ = j := by rw [← down_of_lt _ h, down_up]
    rw [hj'] at e1 e2 e3
    exact ⟨Finset.mem_univ _, e1.2 hk, by rw [e2]; exact hz, by rw [e3]; exact hx⟩
  · intro p hp
    rw [Finset.mem_filter] at hp
    exact up_down p (hcloud p hp.2.1)
  · intro j _
    exact down_up j
  · intro p _
    rfl

end Cert.Hist

end
-- ==== Proof.Hist.lean ====
/-
  The obstacle histogram of a cloud, as one function: entry `(a, b)` is zero plus, over the points whose clipped
  cells are `(a, b)`, the float of the point's keep bit (one for a kept point, zero otherwise).
-/
import proofs.«115112_j39281770889515_2_alg».proof.Proof.Spec

noncomputable section

namespace Cert.Hist

open Idealize.ShloMosaic Idealize.ShloMosaic.ValueIdx

/-- The histogram of the cloud `x : [8000000, 3]` (columns x, y, z), over the `[400, 400]` grid (rows z, columns x). -/
def hist (x : (⟨2, ![8000000, 3]⟩ : Shape).Idx → Ideal .f32) : (⟨2, ![400, 400]⟩ : Shape).Idx → Ideal .f32 := fun i =>
  zeroW + ∑ j ∈ Finset.univ.filter (fun j : (⟨1, ![8000000]⟩ : Shape).Idx =>
      (clip (cell (x (ix2 (j 0) (2 : Fin 3))))).toInt = ((i 0).val : ℤ)
        ∧ (clip (cell (x (ix2 (j 0) (0 : Fin 3))))).toInt = ((i 1).val : ℤ)),
    FloatOps.uitofp (F := Ideal) .f32 (keep (x (ix2 (j 0) (0 : Fin 3))) (x (ix2 (j 0) (1 : Fin 3))) (x (ix2 (j 0) (2 : Fin 3))))

/-- The histogram at an index, by its definition. -/
theorem hist_apply (x : (⟨2, ![8000000, 3]⟩ : Shape).Idx → Ideal .f32) (i : (⟨2, ![400, 400]⟩ : Shape).Idx) :
    hist x i = zeroW + ∑ j ∈ Finset.univ.filter (fun j : (⟨1, ![8000000]⟩ : Shape).Idx =>
      (clip (cell (x (ix2 (j 0) (2 : Fin 3))))).toInt = ((i 0).val : ℤ)
        ∧ (clip (cell (x (ix2 (j 0) (0 : Fin 3))))).toInt = ((i 1).val : ℤ)),
    FloatOps.uitofp (F := Ideal) .f32 (keep (x (ix2 (j 0) (0 : Fin 3))) (x (ix2 (j 0) (1 : Fin 3))) (x (ix2 (j 0) (2 : Fin 3)))) := rfl

end Cert.Hist

end
-- ==== Proof.KernelHist.lean ====
/-
  The kernel's program computes the histogram.

  The host's tail turns the packed bins into: entry `(a, b)` is zero plus a one for every point `p` of the padded
  array whose wrapped bin is `400 a + b`. The bin of `p` is `400 · cz + cx` of its clipped cells when its keep bit and
  its in-cloud bit are both set, and the extra bin `160000` otherwise; so `p` is counted exactly when it lies in the
  cloud, is kept, and has clipped cells `(a, b)`. Inside the cloud the staged array holds the cloud's coordinates, so
  these are the cloud's kept points with cells `(a, b)`: the sum of ones over them is the sum of the 0/1 weights
  over all cloud points with cells `(a, b)`.
-/
import proofs.«115112_j39281770889515_2_alg».proof.Proof.Tail
import proofs.«115112_j39281770889515_2_alg».proof.Proof.Count
import proofs.«115112_j39281770889515_2_alg».proof.Proof.Hist

set_option maxRecDepth 16384

noncomputable section

namespace Cert.Hist.Kernel

open Idealize.ShloMosaic Idealize.ShloMosaic.ValueIdx
open Cert.KernelIdeal Cert.Hist Cert.Hist.Blocks Cert.Hist.Tail

/-- A conjunction of two one-bit words is set only if the second is. -/
theorem andi_right {a b : BitVec 1} (h : IntOp.andi a b = 1#1) : b = 1#1 := by
  by_cases hb : b = 1#1
  · exact hb
  · rw [eq_zero_of_ne_one hb] at h
    by_cases ha : a = 1#1
    · rw [ha] at h; exact absurd h (by decide)
    · rw [eq_zero_of_ne_one ha] at h; exact absurd h (by decide)

/-- A set bit is neutral for the conjunction. -/
theorem andi_one (a : BitVec 1) : IntOp.andi a 1#1 = a := by
  by_cases ha : a = 1#1
  · rw [ha]; decide
  · rw [eq_zero_of_ne_one ha]; decide

/-- The keep-and-in-cloud bit and the two cells of point `p` of the padded array. -/
def kt (A : S3x65536x128.Idx → Ideal .f32) (p : S8388608.Idx) : BitVec 1 :=
  IntOp.andi (keep (A (ix3 (0 : Fin 3) ((rowLane p) 0) ((rowLane p) 1))) (A (ix3 (1 : Fin 3) ((rowLane p) 0) ((rowLane p) 1)))
      (A (ix3 (2 : Fin 3) ((rowLane p) 0) ((rowLane p) 1))))
    (inCloud (BitVec.ofNat 32 (((rowLane p) 0).val / 4096)) (BitVec.ofNat 32 (((rowLane p) 0).val % 4096))
      (BitVec.ofNat 32 ((rowLane p) 1).val))
def bz (A : S3x65536x128.Idx → Ideal .f32) (p : S8388608.Idx) : BitVec 32 :=
  cell (A (ix3 (2 : Fin 3) ((rowLane p) 0) ((rowLane p) 1)))
def bx (A : S3x65536x128.Idx → Ideal .f32) (p : S8388608.Idx) : BitVec 32 :=
  cell (A (ix3 (0 : Fin 3) ((rowLane p) 0) ((rowLane p) 1)))

/-- The in-cloud bit of point `p` says `p` is below the cloud's length. -/
theorem inCloud_rowLane (p : S8388608.Idx) :
    inCloud (BitVec.ofNat 32 (((rowLane p) 0).val / 4096)) (BitVec.ofNat 32 (((rowLane p) 0).val % 4096))
        (BitVec.ofNat 32 ((rowLane p) 1).val) = 1#1 ↔ (p 0).val < 8000000 := by
  have hp : (p 0).val < 8388608 := (p 0).isLt
  have key := inCloud_iff (⟨(p 0).val / 128 / 4096, by omega⟩ : Fin 16)
    (⟨(p 0).val / 128 % 4096, Nat.mod_lt _ (by decide)⟩ : Fin 4096) (⟨(p 0).val % 128, Nat.mod_lt _ (by decide)⟩ : Fin 128)
  have e : ((p 0).val / 128 / 4096 * 4096 + (p 0).val / 128 % 4096) * 128 + (p 0).val % 128 < 8000000 ↔ (p 0).val < 8000000 := by
    omega
  exact key.trans e

/-- A counted point lies in the cloud. -/
theorem lt_of_kt (A : S3x65536x128.Idx → Ideal .f32) (p : S8388608.Idx) (h : kt A p = 1#1) : (p 0).val < 8000000 :=
  (inCloud_rowLane p).mp (andi_right h)

/-- Inside the cloud, the bit and the cells of point `p` of the padded array are the cloud's point's. -/
theorem same_point (A : S3x65536x128.Idx → Ideal .f32) (x : S8000000x3.Idx → Ideal .f32)
    (hA : ∀ (ch : Fin 3) (R : Fin 65536) (l : Fin 128) (h : R.val * 128 + l.val < 8000000),
      A (ix3 ch R l) = x (ix2 (⟨R.val * 128 + l.val, h⟩ : Fin 8000000) ch))
    (p : S8388608.Idx) (h : (p 0).val < 8000000) :
    (kt A p = 1#1 ↔ keep (x (ix2 (⟨(p 0).val, h⟩ : Fin 8000000) (0 : Fin 3))) (x (ix2 (⟨(p 0).val, h⟩ : Fin 8000000) (1 : Fin 3)))
        (x (ix2 (⟨(p 0).val, h⟩ : Fin 8000000) (2 : Fin 3))) = 1#1)
      ∧ bz A p = cell (x (ix2 (⟨(p 0).val, h⟩ : Fin 8000000) (2 : Fin 3)))
      ∧ bx A p = cell (x (ix2 (⟨(p 0).val, h⟩ : Fin 8000000) (0 : Fin 3))) := by
  have hh : (p 0).val / 128 * 128 + (p 0).val % 128 < 8000000 := by omega
  have e : ∀ ch : Fin 3, A (ix3 ch ((rowLane p) 0) ((rowLane p) 1)) = x (ix2 (⟨(p 0).val, h⟩ : Fin 8000000) ch) := fun ch =>
    (hA ch (rowLane p 0) (rowLane p 1) hh).trans (congrArg (fun q : Fin 8000000 => x (ix2 q ch)) (Fin.ext (by
      show (p 0).val / 128 * 128 + (p 0).val % 128 = (p 0).val; omega)))
  unfold kt bz bx
  rw [e 0, e 1, e 2, (inCloud_rowLane p).mpr h, andi_one]
  exact ⟨Iff.rfl, rfl, rfl⟩

/-- THE HISTOGRAM from the packed bins of a staged array that holds the cloud. -/
theorem hist_of_staged (A : S3x65536x128.Idx → Ideal .f32) (x : S8000000x3.Idx → Ideal .f32)
    (hA : ∀ (ch : Fin 3) (R : Fin 65536) (l : Fin 128) (h : R.val * 128 + l.val < 8000000),
      A (ix3 ch R l) = x (ix2 (⟨R.val * 128 + l.val, h⟩ : Fin 8000000) ch)) :
    tailHist (packed A) = hist x := by
  funext i
  obtain ⟨a, b, rfl⟩ : ∃ (a : Fin 400) (b : Fin 400), i = ix2 a b := ⟨i 0, i 1, eq_ix2 i⟩
  rw [tail_apply, hist_apply]
  refine congrArg (zeroW + ·) ?_
  have key := count_eq (kt A) (bz A) (bx A)
    (fun j => keep (x (ix2 (j 0) (0 : Fin 3))) (x (ix2 (j 0) (1 : Fin 3))) (x (ix2 (j 0) (2 : Fin 3))))
    (fun j => cell (x (ix2 (j 0) (2 : Fin 3)))) (fun j => cell (x (ix2 (j 0) (0 : Fin 3))))
    (fun p hk => lt_of_kt A p hk) (fun p h => same_point A x hA p h) a b
  beta_reduce at key
  refine Eq.trans (Finset.sum_congr (Finset.ext fun p => ?_) fun _ _ => rfl) key
  rw [Finset.mem_filter, Finset.mem_filter]
  exact and_congr_right fun _ => lands_packed_iff (kt A p) (bz A p) (bx A p) a b

end Cert.Hist.Kernel

end
-- ==== Proof.RefStages.lean ====
import proofs.«115112_j39281770889515_2_alg».proof.Proof.Gen.ReferenceIdeal.Read
import proofs.«115112_j39281770889515_2_alg».proof.Proof.Spec

/-!
  The reference program's stages read at one point of the cloud.

  Point `j` of the cloud is the row `j` of the input; its coordinates are the three columns. Each stage of the
  reference at the index `j` is a scalar expression in those three coordinates: the weight is the float of the
  one-bit word `keep x y z`, and the two columns of the scatter's index array are the wrapped, clipped cells of
  `z` (column 0) and of `x` (column 1). The accumulator starts at the zero word everywhere.
-/

noncomputable section

namespace Cert.Hist.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Hist

variable {F : FTy → Type} [FloatOps F]

/-! ## The three columns at a row -/

/-- The reshaped first column at row `j` is the input at `(j, 0)`. -/
theorem col0_apply (x0 : (⟨S8000000x3, .f32⟩ : BufTy).Contents (Elt F)) (j : Fin 8000000) :
    val_main_v1 (F := F) x0 (ix1 j) = x0 (ix2 j (0 : Fin 3)) := by
  rw [val_main_v1_apply, val_main_v0_apply]
  refine congrArg x0 (funext fun a => ?_)
  match a with
  | ⟨0, _⟩ => exact Fin.ext (Nat.div_one _)
  | ⟨1, _⟩ => rfl

/-- The reshaped second column at row `j` is the input at `(j, 1)`. -/
theorem col1_apply (x0 : (⟨S8000000x3, .f32⟩ : BufTy).Contents (Elt F)) (j : Fin 8000000) :
    val_main_v3 (F := F) x0 (ix1 j) = x0 (ix2 j (1 : Fin 3)) := by
  rw [val_main_v3_apply, val_main_v2_apply]
  refine congrArg x0 (funext fun a => ?_)
  match a with
  | ⟨0, _⟩ => exact Fin.ext (Nat.div_one _)
  | ⟨1, _⟩ => rfl

/-- The reshaped third column at row `j` is the input at `(j, 2)`. -/
theorem col2_apply (x0 : (⟨S8000000x3, .f32⟩ : BufTy).Contents (Elt F)) (j : Fin 8000000) :
    val_main_v6 (F := F) x0 (ix1 j) = x0 (ix2 j (2 : Fin 3)) := by
  rw [val_main_v6_apply, val_main_v5_apply]
  refine congrArg x0 (funext fun a => ?_)
  match a with
  | ⟨0, _⟩ => exact Fin.ext (Nat.div_one _)
  | ⟨1, _⟩ => rfl

/-! ## The two cells at a row -/

/-- The first converted stage at row `j` is the cell of the `z` coordinate. -/
theorem cell_z_apply (x0 : (⟨S8000000x3, .f32⟩ : BufTy).Contents (Elt Ideal)) (j : Fin 8000000) :
    val_main_v17 (F := Ideal) x0 (ix1 j) = cell (x0 (ix2 j (2 : Fin 3))) := by
  rw [val_main_v17_apply, val_main_v16_apply, val_main_v15_apply, val_main_v13_apply, val_main_v14_apply,
    val_main_cst_2_apply, val_main_v12_apply, val_main_cst_1_apply, col2_apply]
  rfl

/-- The second converted stage at row `j` is the cell of the `x` coordinate. -/
theorem cell_x_apply (x0 : (⟨S8000000x3, .f32⟩ : BufTy).Contents (Elt Ideal)) (j : Fin 8000000) :
    val_main_v23 (F := Ideal) x0 (ix1 j) = cell (x0 (ix2 j (0 : Fin 3))) := by
  rw [val_main_v23_apply, val_main_v22_apply, val_main_v21_apply, val_main_v19_apply, val_main_v20_apply,
    val_main_cst_4_apply, val_main_v18_apply, val_main_cst_3_apply, col0_apply]
  rfl

/-! ## The weight -/

/-- The height test at row `j` is `height` of the negated `y` coordinate. -/
theorem height_apply (x0 : (⟨S8000000x3, .f32⟩ : BufTy).Contents (Elt Ideal)) (j : Fin 8000000) :
    val_main_v11 (F := Ideal) x0 (ix1 j) = height (-(x0 (ix2 j (1 : Fin 3)))) := by
  rw [val_main_v11_apply, val_main_v8_apply, val_main_v10_apply, val_main_v4_apply, val_main_v7_apply,
    val_main_cst_apply, val_main_v9_apply, val_main_cst_0_apply, col1_apply]
  rfl

/-- The four bound tests at row `j` are `inGrid` of the two cells. -/
theorem inGrid_apply (x0 : (⟨S8000000x3, .f32⟩ : BufTy).Contents (Elt Ideal)) (j : Fin 8000000) :
    val_main_v34 (F := Ideal) x0 (ix1 j) = inGrid (cell (x0 (ix2 j (2 : Fin 3)))) (cell (x0 (ix2 j (0 : Fin 3)))) := by
  rw [val_main_v34_apply, val_main_v31_apply, val_main_v28_apply, val_main_v25_apply, val_main_v27_apply,
    val_main_v30_apply, val_main_v33_apply, val_main_v24_apply, val_main_c_apply, val_main_v26_apply,
    val_main_c_5_apply, val_main_v29_apply, val_main_c_6_apply, val_main_v32_apply, val_main_c_7_apply,
    cell_z_apply, cell_x_apply]
  rfl

/-- THE WEIGHT of point `j`: the float of its `keep` bit. -/
theorem weight_apply (x0 : (⟨S8000000x3, .f32⟩ : BufTy).Contents (Elt Ideal)) (j : Fin 8000000) :
    val_main_v36 (F := Ideal) x0 (ix1 j)
      = FloatOps.uitofp (F := Ideal) .f32 (keep (x0 (ix2 j (0 : Fin 3))) (x0 (ix2 j (1 : Fin 3))) (x0 (ix2 j (2 : Fin 3)))) := by
  rw [val_main_v36_apply, val_main_v35_apply, height_apply, inGrid_apply]
  rfl

/-! ## The clipped and wrapped cells -/

/-- The first clipped stage at row `j` is the clipped cell of `z`. -/
theorem clip_z_apply (x0 : (⟨S8000000x3, .f32⟩ : BufTy).Contents (Elt Ideal)) (j : Fin 8000000) :
    val_main_v37 (F := Ideal) x0 (ix1 j) = clip (cell (x0 (ix2 j (2 : Fin 3)))) := by
  rw [val_main_v37_apply, val_main_call2_v4_apply, val_main_call2_v3_apply, val_main_c_9_apply,
    val_main_call2_v2_apply, val_main_call2_v1_apply, val_main_call2_v0_apply, val_main_c_8_apply, cell_z_apply]
  rfl

/-- The second clipped stage at row `j` is the clipped cell of `x`. -/
theorem clip_x_apply (x0 : (⟨S8000000x3, .f32⟩ : BufTy).Contents (Elt Ideal)) (j : Fin 8000000) :
    val_main_v38 (F := Ideal) x0 (ix1 j) = clip (cell (x0 (ix2 j (0 : Fin 3)))) := by
  rw [val_main_v38_apply, val_main_call3_v4_apply, val_main_call3_v3_apply, val_main_c_11_apply,
    val_main_call3_v2_apply, val_main_call3_v1_apply, val_main_call3_v0_apply, val_main_c_10_apply, cell_x_apply]
  rfl

/-- The first wrapped stage at row `j`. -/
theorem wrap_z_apply (x0 : (⟨S8000000x3, .f32⟩ : BufTy).Contents (Elt Ideal)) (j : Fin 8000000) :
    val_main_v44 (F := Ideal) x0 (ix1 j) = wrap 400#32 (clip (cell (x0 (ix2 j (2 : Fin 3))))) := by
  rw [val_main_v44_apply, val_main_v41_apply, val_main_v43_apply, val_main_v40_apply, val_main_c_13_apply,
    val_main_v42_apply, val_main_c_14_apply, clip_z_apply]
  rfl

/-- The second wrapped stage at row `j`. -/
theorem wrap_x_apply (x0 : (⟨S8000000x3, .f32⟩ : BufTy).Contents (Elt Ideal)) (j : Fin 8000000) :
    val_main_v49 (F := Ideal) x0 (ix1 j) = wrap 400#32 (clip (cell (x0 (ix2 j (0 : Fin 3))))) := by
  rw [val_main_v49_apply, val_main_v46_apply, val_main_v48_apply, val_main_v45_apply, val_main_c_15_apply,
    val_main_v47_apply, val_main_c_16_apply, clip_x_apply]
  rfl

/-! ## The index array: two one-column pieces side by side -/

/-- Column 0 of the index array at row `j`: the wrapped, clipped cell of `z`. -/
theorem index_z_apply (x0 : (⟨S8000000x3, .f32⟩ : BufTy).Contents (Elt Ideal)) (j : Fin 8000000) :
    val_main_v52 (F := Ideal) x0 (ix2 j (0 : Fin 2)) = wrap 400#32 (clip (cell (x0 (ix2 j (2 : Fin 3))))) := by
  unfold val_main_v52
  rw [concatenate_pair_apply_left (t := S8000000x2) (s₁ := S8000000x1) (s₂ := S8000000x1) (1 : Fin 2) _ _ concatenates_S8000000x1_S8000000x1_S8000000x2_d1
    (ix2 j (0 : Fin 2)) rfl (ix2 j (0 : Fin 1)) (fun b => match b with | ⟨0, _⟩ => rfl | ⟨1, _⟩ => rfl)]
  rw [val_main_v50_apply]
  exact wrap_z_apply x0 j

/-- Column 1 of the index array at row `j`: the wrapped, clipped cell of `x`. -/
theorem index_x_apply (x0 : (⟨S8000000x3, .f32⟩ : BufTy).Contents (Elt Ideal)) (j : Fin 8000000) :
    val_main_v52 (F := Ideal) x0 (ix2 j (1 : Fin 2)) = wrap 400#32 (clip (cell (x0 (ix2 j (0 : Fin 3))))) := by
  unfold val_main_v52
  rw [concatenate_pair_apply_right (t := S8000000x2) (s₁ := S8000000x1) (s₂ := S8000000x1) (1 : Fin 2) _ _ concatenates_S8000000x1_S8000000x1_S8000000x2_d1
    (ix2 j (1 : Fin 2)) rfl rfl (ix2 j (0 : Fin 1))
    (fun b => match b with | ⟨0, _⟩ => fun _ => rfl | ⟨1, _⟩ => fun h => absurd rfl h) rfl]
  rw [val_main_v51_apply]
  exact wrap_x_apply x0 j

/-! ## The accumulator's start -/

/-- The scatter's operand is the zero word at every entry. -/
theorem init_apply (i : S400x400.Idx) : val_main_v39 (F := Ideal) i = zeroW := by
  rw [val_main_v39_apply, val_main_cst_12_apply]
  rfl

end Cert.Hist.Ref

end
-- ==== Proof.RefHist.lean ====
/-
  The reference computes the histogram.

  Its last operation accumulates the weight of every point at the pair its index array names. At the exact instance
  that is the sum, over the points whose index pair is `(a, b)`, of the weights. The index pair of a point is its two
  clipped cells (bringing them into range changes nothing: they are already in `[0, 400)`), and its weight is the float
  of its keep bit.
-/
import proofs.«115112_j39281770889515_2_alg».proof.Proof.RefStages
import proofs.«115112_j39281770889515_2_alg».proof.Proof.LibScatterIndex
import proofs.«115112_j39281770889515_2_alg».proof.Proof.LibScatterAddSum
import proofs.«115112_j39281770889515_2_alg».proof.Proof.Words
import proofs.«115112_j39281770889515_2_alg».proof.Proof.Hist

noncomputable section

namespace Cert.Hist.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Hist

/-- THE REFERENCE'S RESULT is the histogram of its argument. -/
theorem ref_hist (x0 : (⟨S8000000x3, .f32⟩ : BufTy).Contents (Elt Ideal)) : val_main_v53 (F := Ideal) x0 = hist x0 := by
  funext i
  obtain ⟨a, b, rfl⟩ : ∃ (a : Fin 400) (b : Fin 400), i = ix2 a b := ⟨i 0, i 1, eq_ix2 i⟩
  rw [hist_apply]
  rw [show val_main_v53 (F := Ideal) x0 = Host.scatterAdd (F := Ideal) scatter_S400x400_S8000000x2_S8000000_n_01_01_1
      (val_main_v39 (F := Ideal)) (val_main_v52 (F := Ideal) x0) (val_main_v36 (F := Ideal) x0) from rfl]
  rw [Cert.LibScatterAddSum.scatterAdd_apply, Cert.LibScatterAddSum.hostScatterAdd_apply]
  refine congrArg₂ (· + ·) (init_apply (ix2 a b)) (Finset.sum_congr (Finset.ext fun j => ?_) fun j _ => ?_)
  · rw [Finset.mem_filter, Finset.mem_filter]
    refine and_congr_right fun _ => ?_
    refine Iff.trans (Cert.LibScatterIndex.resultIdx_two scatter_S400x400_S8000000x2_S8000000_n_01_01_1_wf j
      (val_main_v52 (F := Ideal) x0) (ix2 a b)) ?_
    rw [index_z_apply x0 (j 0), index_x_apply x0 (j 0)]
    exact lands_pair_iff _ _ a b
  · exact (congrArg (val_main_v36 (F := Ideal) x0) (eq_ix1 j)).trans (weight_apply x0 (j 0))

end Cert.Hist.Ref

end
-- ==== Proof.lean ====
/-
  A point cloud's obstacle histogram, computed two ways, is one function.

  Both programs take a cloud `[8000000, 3]` of points `(x, y, z)` and return a `[400, 400]` array of counts. A point is
  KEPT when its negated height `−y` lies strictly between 0 and 1 and its two cells `round(z / c + 200)`,
  `round(x / c + 200)` (as 32-bit integers; `c` the f32 word nearest 0.1) both lie in `[0, 400)`; entry `(a, b)` counts
  the kept points whose clipped cells are `(a, b)`.

  The reference accumulates, at the pair of clipped cells of every point, the point's 0/1 weight. The kernel's
  program transposes and pads the cloud, computes in 16 blocks of 4096 × 128 points ONE 32-bit word per point —
  `400 · cz + cx` for a kept point whose number is below the cloud's length, the extra bin `160000` for every other
  point, padding included — then accumulates a one per point over 160001 bins, drops the extra bin and reshapes.
  Over the extended reals the accumulation is an exact sum, so both results are, at `(a, b)`, zero plus the number
  of kept cloud points with clipped cells `(a, b)`: the only arithmetic law used is that a sum may drop its zero
  terms and be re-indexed (no finiteness of the input is needed; `0 − y = −y` holds for every extended real, and every
  other operation is the same function on both sides, word for word).

  The modules: `Spec` (the per-point functions), `Words` (facts about the 32-bit words), `LibScatterIndex` (where an
  accumulated update lands), `Count` (the re-indexing of the sum), `BodyWord` (the word the body stores),
  `Blocks` (the 16 blocks are one array), `Input` (the staged cloud), `Tail` (the host's accumulation), `KernelHist`
  and `RefHist` (each program's result is `hist`), `RefStages` (the reference's operations at a point).
  `preserves` holds trivially: the idealization rewrote no operation.
-/
import proofs.«115112_j39281770889515_2_alg».proof.Defs
import proofs.«115112_j39281770889515_2_alg».proof.Proof.Gen.Kernel
import proofs.«115112_j39281770889515_2_alg».proof.Proof.Gen.KernelIdeal
import proofs.«115112_j39281770889515_2_alg».proof.Proof.Gen.ReferenceIdeal
import proofs.«115112_j39281770889515_2_alg».proof.Proof.Gen.ReferenceIdeal.Run
import proofs.«115112_j39281770889515_2_alg».proof.Proof.Gen.ReferenceIdeal.Read
import proofs.«115112_j39281770889515_2_alg».proof.Proof.Gen.Pre_finite_inputs
import proofs.«115112_j39281770889515_2_alg».proof.Proof.FrameKernel
import proofs.«115112_j39281770889515_2_alg».proof.Proof.FrameKernelIdeal
import proofs.«115112_j39281770889515_2_alg».proof.Proof.Input
import proofs.«115112_j39281770889515_2_alg».proof.Proof.KernelHist
import proofs.«115112_j39281770889515_2_alg».proof.Proof.RefHist
import Idealize.ShloMosaic.Adequacy
import Idealize.ShloMosaic.Init

set_option maxRecDepth 16384

noncomputable section

namespace Cert.Proof

open Idealize.ShloMosaic Idealize.ShloMosaic.TcCoe Idealize.SL.Sem Cert.Hist

/-- The kernel's program, run at the exact instance: every execution ends with the result buffer at the histogram
    of the argument and the argument unchanged. The region's run names the output array (the packed bins of the staged
    input); the host's tail and the staged input are read on top of it. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v15)
            = hist (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  (θ_run (Cert.KernelIdeal.defs (F := Ideal)) _ _).mono (fun r h c =>
    ⟨(((h c).2 Cert.KernelIdeal.main_v15 (Pipeline.mem_restRefs_of Cert.KernelIdeal.main_v15 (by decide) (by decide))).trans
        (Cert.Hist.Tail.tail_eq m c)).trans
        (Cert.Hist.Kernel.hist_of_staged _ _ (fun ch R l hh => Cert.Hist.Input.staged_apply m c ch R l hh)),
      ((h c).2 Cert.KernelIdeal.main_arg0 (Pipeline.mem_restRefs_of Cert.KernelIdeal.main_arg0 (by decide) (by decide))).trans
        (Cert.KernelIdeal.GenP.W_main_arg0 m (Cert.KernelIdeal.GenP.dats m) c)⟩)
    (Cert.KernelIdeal.GenP.run_main m ρ)

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the cloud, both programs end with the histogram of the cloud. -/
theorem algebraic : Cert.algebraic_KernelIdeal_ReferenceIdeal := by
  intro m ρ m' ρ' _ hagree
  refine ⟨fun c => hist (m ((c.tc : Thread Cert.KernelIdeal.nD Cert.KernelIdeal.τ).loc Cert.KernelIdeal.main_arg0)),
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.Hist.Ref.ref_hist, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
